-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x512x128 : Shape := ⟨3, ![1, 512, 128]⟩
abbrev S1x2048x128 : Shape := ⟨3, ![1, 2048, 128]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 29
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S8192x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S4x2048x1024, .bf16⟩
  | .hbm, ⟨23, _⟩ => ⟨S4x2048x1024, .bf16⟩
  | .hbm, ⟨24, _⟩ => ⟨S4x2048x1024, .bf16⟩
  | .hbm, ⟨25, _⟩ => ⟨S4x2048x1024, .bf16⟩
  | .hbm, ⟨26, _⟩ => ⟨S8192x1024, .bf16⟩
  | .hbm, ⟨27, _⟩ => ⟨S8192x1024, .f32⟩
  | .hbm, ⟨28, _⟩ => ⟨S4x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x128, .bf16⟩
  | .local _ .vmem, ⟨15, _⟩ => ⟨S1x512x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x512x128, .bf16⟩
  | .local _ .vmem, ⟨21, _⟩ => ⟨S1x512x128, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  dot_S512x1024_S1024x1024_S512x1024_1_1_0_0_n_n_wf : DotDims.WF S512x1024 S1024x1024 S512x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x2048x1024.size a
  hwx1_0 : ∀ i : grid1.Coords, EltTy.bits .bf16 = 32 ∨ (Rect.block (s := S4x2048x1024) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x1024.size a
  hwx1_1 : ∀ i : grid1.Coords, EltTy.bits .bf16 = 32 ∨ (Rect.block (s := S4x2048x1024) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S4x2048x1024.size a
  hwx1_2 : ∀ i : grid1.Coords, EltTy.bits .bf16 = 32 ∨ (Rect.block (s := S4x2048x1024) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S4x2048x1024.size a
  hwx1_3 : ∀ i : grid1.Coords, EltTy.bits .bf16 = 32 ∨ (Rect.block (s := S4x2048x1024) S1x512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v11) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S_, .f32⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | .hbm, ⟨47, _⟩ => ⟨S4x2048x16x64, .f32⟩
  | .hbm, ⟨48, _⟩ => ⟨S4x2048x1024, .f32⟩
  | .hbm, ⟨49, _⟩ => ⟨S4x2048x1024, .f32⟩
  | .hbm, ⟨50, _⟩ => ⟨S1x1x1024, .f32⟩
  | .hbm, ⟨51, _⟩ => ⟨S4x2048x1024, .f32⟩
  | .hbm, ⟨52, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KernelRun.lean ====
/-
  The whole program's run with its RESULT named. The program is seven segments in order — a stretch of host
  operations, the projection kernel, three reshapes, the attention kernel, a reshape, the output-projection kernel, a
  last reshape — and each segment ends with every buffer at known contents, so the contents after the last segment
  are a fold through the program from the launch memory. Every weakly fair execution terminates without a fault;
  at the end the result buffer holds what that fold leaves in it, and the nine argument arrays are as launched.
-/
import proofs.«171669_j62259845923177_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result buffer at the contents the
    last segment leaves (`W7`) and the arguments unchanged. -/
theorem run : θ_run defs (onTc (τ := τ) (main (F := F))) ⟨m, fun _ => 0, ρ⟩ (fun r => ∀ c : Dev nD,
      r.2.mem ((c.tc : Thread nD τ).loc main_v17) = W7 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v17 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunValue

end
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.LinearBody.lean ====
/-
  The body of a linear layer on one block of 512 rows, read at an entry: the rows `x[512, 1024]` times the transpose of
  the weights `w[1024, 1024]` (a matrix product into a zero accumulator, contracting the last axis of both), plus the
  bias row `b[1, 1024]` repeated down the rows. At `(r, c)` that is `Σ_k x (r, k) · w (c, k) + b (0, c)` over the
  extended reals; the change of float format before the store is the identity there. The three projections of the
  first kernel and the output projection of the last one are this same term.
-/
import proofs.«171669_j62259845923177_2_alg».proof.Proof.Gen.KernelIdeal.Skeleton
import proofs.«171669_j62259845923177_2_alg».proof.Proof.LibDotTransposedRhs
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- A bias row `[1, 1024]` repeated down 512 rows, read at `(r, c)`: the row's entry `c`. -/
theorem biasRow_apply (b : FVec Ideal S1x1024 .f32) (r : Fin 512) (c : Fin 1024) :
    broadcastTo S512x1024 b broadcasts_S1x1024_S512x1024 (ix2 r c) = b (ix2 (0 : Fin 1) c) :=
  broadcastTo_apply b broadcasts_S1x1024_S512x1024 (ix2 r c) (ix2 (0 : Fin 1) c) (fun a => by
    match a with
    | ⟨0, _⟩ => rfl
    | ⟨1, _⟩ => rfl)

/-- Rows times transposed weights plus the repeated bias row, at `(r, c)`. -/
theorem affine_apply (x : FVec Ideal S512x1024 .bf16) (w : FVec Ideal S1024x1024 .bf16) (b : FVec Ideal S1x1024 .f32)
    (r : Fin 512) (c : Fin 1024) :
    addf (matmul dot_S512x1024_S1024x1024_S512x1024_1_1_0_0_n_n none x w (constant S512x1024 .f32 0x00000000#32))
        (broadcastTo S512x1024 b broadcasts_S1x1024_S512x1024) (ix2 r c)
      = (∑ k : Fin 1024, x (ix2 r k) * w (ix2 c k)) + b (ix2 (0 : Fin 1) c) := by
  show matmul dot_S512x1024_S1024x1024_S512x1024_1_1_0_0_n_n none x w (constant S512x1024 .f32 0x00000000#32) (ix2 r c)
      + broadcastTo S512x1024 b broadcasts_S1x1024_S512x1024 (ix2 r c) = _
  rw [biasRow_apply]
  exact congrArg (· + b (ix2 (0 : Fin 1) c))
    (DotTransposedRhs.matmul_apply_ix2 (M := 512) (K := 1024) (N := 1024) none x w r c)

/-- The query projection's stored block at `(r, c)`. -/
theorem pay_q_apply (x0 : Vec Ideal S512x1024 .bf16) (x1 : Vec Ideal S1024x1024 .bf16) (x2 : Vec Ideal S1x1024 .f32)
    (r : Fin 512) (c : Fin 1024) :
    k0_pay2 x0 x1 x2 (ix2 r c) = (∑ k : Fin 1024, x0 (ix2 r k) * x1 (ix2 c k)) + x2 (ix2 (0 : Fin 1) c) := by
  unfold k0_pay2 k0_pay1
  simp only [shapeCast_self]
  exact affine_apply x0 x1 x2 r c

/-- The key projection's stored block at `(r, c)`. -/
theorem pay_k_apply (x0 : Vec Ideal S512x1024 .bf16) (x1 : Vec Ideal S1024x1024 .bf16) (x2 : Vec Ideal S1x1024 .f32)
    (r : Fin 512) (c : Fin 1024) :
    k0_pay3 x0 x1 x2 (ix2 r c) = (∑ k : Fin 1024, x0 (ix2 r k) * x1 (ix2 c k)) + x2 (ix2 (0 : Fin 1) c) := by
  unfold k0_pay3 k0_pay1
  simp only [shapeCast_self]
  exact affine_apply x0 x1 x2 r c

/-- The value projection's stored block at `(r, c)`. -/
theorem pay_v_apply (x0 : Vec Ideal S512x1024 .bf16) (x1 : Vec Ideal S1024x1024 .bf16) (x2 : Vec Ideal S1x1024 .f32)
    (r : Fin 512) (c : Fin 1024) :
    k0_pay4 x0 x1 x2 (ix2 r c) = (∑ k : Fin 1024, x0 (ix2 r k) * x1 (ix2 c k)) + x2 (ix2 (0 : Fin 1) c) := by
  unfold k0_pay4 k0_pay1
  simp only [shapeCast_self]
  exact affine_apply x0 x1 x2 r c

/-- The output projection's stored block at `(r, c)`. -/
theorem pay_o_apply (x0 : Vec Ideal S512x1024 .bf16) (x1 : Vec Ideal S1024x1024 .bf16) (x2 : Vec Ideal S1x1024 .f32)
    (r : Fin 512) (c : Fin 1024) :
    k2_pay1 x0 x1 x2 (ix2 r c) = (∑ k : Fin 1024, x0 (ix2 r k) * x1 (ix2 c k)) + x2 (ix2 (0 : Fin 1) c) := by
  unfold k2_pay1
  simp only [shapeCast_self]
  exact affine_apply x0 x1 x2 r c

end Cert.KernelIdeal.Body

end
-- ==== Proof.Region0.lean ====
/-
  The projection kernel as whole arrays. Its grid has 16 points; point `t` reads rows `512·t … 512·t+511` of the
  `[8192, 1024]` input, the whole weight matrices and bias rows, and writes rows `512·t … 512·t+511` of each of its three
  outputs. An entry of an output depends on ONE row of the input, so each block a point writes back is that block of one
  whole-array function — rows times transposed weights plus the bias row — and the 16 blocks tile the array: after the
  kernel each output array IS that function of the arrays the kernel was entered with.
-/
import proofs.«171669_j62259845923177_2_alg».proof.Proof.Gen.KernelIdeal.Frame
import proofs.«171669_j62259845923177_2_alg».proof.Proof.LinearBody
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)

/-- Rows times transposed weights plus a bias row, on a whole `[8192, 1024]` array:
    entry `(ρ, f)` is `Σ_k X (ρ, k) · W (f, k) + B (0, f)`. -/
def affine (X : S8192x1024.Idx → EReal) (W : S1024x1024.Idx → EReal) (B : S1x1024.Idx → EReal) : S8192x1024.Idx → EReal :=
  fun i => (∑ k : Fin 1024, X (ix2 (i 0) k) * W (ix2 (i 1) k)) + B (ix2 (0 : Fin 1) (i 1))

theorem affine_ix2 (X : S8192x1024.Idx → EReal) (W : S1024x1024.Idx → EReal) (B : S1x1024.Idx → EReal)
    (ρ : Fin 8192) (f : Fin 1024) :
    affine X W B (ix2 ρ f) = (∑ k : Fin 1024, X (ix2 ρ k) * W (ix2 f k)) + B (ix2 (0 : Fin 1) f) := rfl

theorem hz : (![0, 0] : Fin 2 → Nat) = fun _ => 0 := funext fun a => by fin_cases a <;> rfl

variable (V : (c : Dev nD) → (b : Ref sig .tc) → Buf (Elt Ideal) ((c : Thread nD τ).loc b))

/-! ## The query projection (output window 7) -/

/-- The printed index maps, decided over the grid: the row block moves with the point, the weights and the bias row stay. -/
theorem idx0_7 : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_7.index t (0 : Fin 2) ≤ 15 ∧ win0_7.index t (1 : Fin 2) = 0 :=
  (by decide +kernel : ∀ t : Fin grid0.N, _)

/-- Every block of rows is some point's. -/
theorem onto0_7 : ∀ q0 : Fin 16, ∃ t : Fin cfg0.N, win0_7.index t = ![q0.val, 0] :=
  (by decide +kernel : ∀ q0 : Fin 16, ∃ t : Fin grid0.N, win0_7.index t = ![q0.val, 0])

/-- What point `t` writes back is block `t` of the whole-array function of the arrays as the kernel finds them. -/
theorem flushed0_7 (c : Dev nD) (t : Fin cfg0.N) :
    (dat0 V c).flushed 7 t
      = ((cfg0.win 7).blk t).view.read (Elt Ideal) (affine (V c main_v1) (V c main_v2) (V c main_v6)) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx0_7 t
  funext j
  obtain ⟨r, q, rfl⟩ : ∃ (r : Fin 512) (q : Fin 1024), j = ix2 r q := ⟨j 0, j 1, eq_ix2 j⟩
  show k0_pay2 (iblk0 V c 0 t) (iblk0 V c 1 t) (iblk0 V c 2 t) (ix2 r q)
      = affine (V c main_v1) (V c main_v2) (V c main_v6) (((cfg0.win 7).blk t).view.emb (ix2 r q))
  refine (Body.pay_q_apply (iblk0 V c 0 t) (iblk0 V c 1 t) (iblk0 V c 2 t) r q).trans ?_
  have hrow : win0_7.index t (0 : Fin 2) * 512 + 1 * r.val < 8192 := by omega
  have hi : ((cfg0.win 7).blk t).view.emb (ix2 r q)
      = ix2 (⟨win0_7.index t (0 : Fin 2) * 512 + 1 * r.val, hrow⟩ : Fin 8192) q := by
    funext x; apply Fin.ext
    match x with
    | ⟨0, _⟩ => rfl
    | ⟨1, _⟩ => show win0_7.index t (1 : Fin 2) * 1024 + 1 * q.val = q.val; omega
  rw [hi, affine_ix2]
  have hx : ∀ k : Fin 1024, iblk0 V c 0 t (ix2 r k)
      = V c main_v1 (ix2 (⟨win0_7.index t (0 : Fin 2) * 512 + 1 * r.val, hrow⟩ : Fin 8192) k) := fun k => by
    show V c main_v1 (((cfg0.win 0).blk t).view.emb (ix2 r k)) = _
    refine congrArg (V c main_v1) (funext fun x => Fin.ext ?_)
    match x with
    | ⟨0, _⟩ => show win0_0.index t (0 : Fin 2) * 512 + 1 * r.val = win0_7.index t (0 : Fin 2) * 512 + 1 * r.val; omega
    | ⟨1, _⟩ => show win0_0.index t (1 : Fin 2) * 1024 + 1 * k.val = k.val; omega
  have hw : ∀ k : Fin 1024, iblk0 V c 1 t (ix2 q k) = V c main_v2 (ix2 q k) := fun k => by
    show V c main_v2 (((cfg0.win 1).blk t).view.emb (ix2 q k)) = _
    refine congrArg (V c main_v2) (funext fun x => Fin.ext ?_)
    match x with
    | ⟨0, _⟩ => show win0_1.index t (0 : Fin 2) * 1024 + 1 * q.val = q.val; omega
    | ⟨1, _⟩ => show win0_1.index t (1 : Fin 2) * 1024 + 1 * k.val = k.val; omega
  have hb : iblk0 V c 2 t (ix2 (0 : Fin 1) q) = V c main_v6 (ix2 (0 : Fin 1) q) := by
    show V c main_v6 (((cfg0.win 2).blk t).view.emb (ix2 (0 : Fin 1) q)) = _
    refine congrArg (V c main_v6) (funext fun x => Fin.ext ?_)
    match x with
    | ⟨0, _⟩ => show win0_2.index t (0 : Fin 2) * 1 + 1 * 0 = 0; omega
    | ⟨1, _⟩ => show win0_2.index t (1 : Fin 2) * 1024 + 1 * q.val = q.val; omega
  rw [hb]
  refine congrArg (· + V c main_v6 (ix2 (0 : Fin 1) q)) (Finset.sum_congr rfl fun k _ => ?_)
  rw [hx k, hw k]

/-- An index of the array is in point `t`'s block iff each coordinate is in the block's range on its axis. -/
theorem mem_blk0_7 (t : Fin cfg0.N) (i : S8192x1024.Idx) :
    i ∈ ((cfg0.win 7).blk t).view.set ↔ ∀ x : Fin 2, win0_7.index t x * S512x1024.size x ≤ (i x).val
      ∧ (i x).val < win0_7.index t x * S512x1024.size x + S512x1024.size x := by
  show i ∈ ((View.whole main_v10_0).slice (win0_7.rect t)).set ↔ _
  rw [View.set_slice_whole, Rect.mem_set_unit]
  exact Iff.rfl

/-- Every index of the array is in some point's block: the point of its block of rows. -/
theorem cover0_7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := onto0_7 ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk0_7]
  intro x
  match x with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The array after the kernel. -/
theorem final0_7 (c : Dev nD) :
    (dat0 V c).arrAt 7 cfg0.N = affine (V c main_v1) (V c main_v2) (V c main_v6) :=
  (dat0 V c).arrAt_eq_of_cover 7 (affine (V c main_v1) (V c main_v2) (V c main_v6)) (fun t _ => flushed0_7 V c t) (cover0_7)

/-! ## The key projection (output window 8) -/

/-- The printed index maps, decided over the grid: the row block moves with the point, the weights and the bias row stay. -/
theorem idx0_8 : ∀ t : Fin cfg0.N,
    win0_0.index t (0 : Fin 2) = win0_8.index t (0 : Fin 2) ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_8.index t (0 : Fin 2) ≤ 15 ∧ win0_8.index t (1 : Fin 2) = 0 :=
  (by decide +kernel : ∀ t : Fin grid0.N, _)

/-- Every block of rows is some point's. -/
theorem onto0_8 : ∀ q0 : Fin 16, ∃ t : Fin cfg0.N, win0_8.index t = ![q0.val, 0] :=
  (by decide +kernel : ∀ q0 : Fin 16, ∃ t : Fin grid0.N, win0_8.index t = ![q0.val, 0])

/-- What point `t` writes back is block `t` of the whole-array function of the arrays as the kernel finds them. -/
theorem flushed0_8 (c : Dev nD) (t : Fin cfg0.N) :
    (dat0 V c).flushed 8 t
      = ((cfg0.win 8).blk t).view.read (Elt Ideal) (affine (V c main_v1) (V c main_v3) (V c main_v7)) := by
  show (cfg0.win 8).cut (grid0.coords t) ((dat0 V c).after 8 t) = _
  rw [after0_8]
  unfold out0_8
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx0_8 t
  funext j
  obtain ⟨r, q, rfl⟩ : ∃ (r : Fin 512) (q : Fin 1024), j = ix2 r q := ⟨j 0, j 1, eq_ix2 j⟩
  show k0_pay3 (iblk0 V c 0 t) (iblk0 V c 3 t) (iblk0 V c 4 t) (ix2 r q)
      = affine (V c main_v1) (V c main_v3) (V c main_v7) (((cfg0.win 8).blk t).view.emb (ix2 r q))
  refine (Body.pay_k_apply (iblk0 V c 0 t) (iblk0 V c 3 t) (iblk0 V c 4 t) r q).trans ?_
  have hrow : win0_8.index t (0 : Fin 2) * 512 + 1 * r.val < 8192 := by omega
  have hi : ((cfg0.win 8).blk t).view.emb (ix2 r q)
      = ix2 (⟨win0_8.index t (0 : Fin 2) * 512 + 1 * r.val, hrow⟩ : Fin 8192) q := by
    funext x; apply Fin.ext
    match x with
    | ⟨0, _⟩ => rfl
    | ⟨1, _⟩ => show win0_8.index t (1 : Fin 2) * 1024 + 1 * q.val = q.val; omega
  rw [hi, affine_ix2]
  have hx : ∀ k : Fin 1024, iblk0 V c 0 t (ix2 r k)
      = V c main_v1 (ix2 (⟨win0_8.index t (0 : Fin 2) * 512 + 1 * r.val, hrow⟩ : Fin 8192) k) := fun k => by
    show V c main_v1 (((cfg0.win 0).blk t).view.emb (ix2 r k)) = _
    refine congrArg (V c main_v1) (funext fun x => Fin.ext ?_)
    match x with
    | ⟨0, _⟩ => show win0_0.index t (0 : Fin 2) * 512 + 1 * r.val = win0_8.index t (0 : Fin 2) * 512 + 1 * r.val; omega
    | ⟨1, _⟩ => show win0_0.index t (1 : Fin 2) * 1024 + 1 * k.val = k.val; omega
  have hw : ∀ k : Fin 1024, iblk0 V c 3 t (ix2 q k) = V c main_v3 (ix2 q k) := fun k => by
    show V c main_v3 (((cfg0.win 3).blk t).view.emb (ix2 q k)) = _
    refine congrArg (V c main_v3) (funext fun x => Fin.ext ?_)
    match x with
    | ⟨0, _⟩ => show win0_3.index t (0 : Fin 2) * 1024 + 1 * q.val = q.val; omega
    | ⟨1, _⟩ => show win0_3.index t (1 : Fin 2) * 1024 + 1 * k.val = k.val; omega
  have hb : iblk0 V c 4 t (ix2 (0 : Fin 1) q) = V c main_v7 (ix2 (0 : Fin 1) q) := by
    show V c main_v7 (((cfg0.win 4).blk t).view.emb (ix2 (0 : Fin 1) q)) = _
    refine congrArg (V c main_v7) (funext fun x => Fin.ext ?_)
    match x with
    | ⟨0, _⟩ => show win0_4.index t (0 : Fin 2) * 1 + 1 * 0 = 0; omega
    | ⟨1, _⟩ => show win0_4.index t (1 : Fin 2) * 1024 + 1 * q.val = q.val; omega
  rw [hb]
  refine congrArg (· + V c main_v7 (ix2 (0 : Fin 1) q)) (Finset.sum_congr rfl fun k _ => ?_)
  rw [hx k, hw k]

/-- An index of the array is in point `t`'s block iff each coordinate is in the block's range on its axis. -/
theorem mem_blk0_8 (t : Fin cfg0.N) (i : S8192x1024.Idx) :
    i ∈ ((cfg0.win 8).blk t).view.set ↔ ∀ x : Fin 2, win0_8.index t x * S512x1024.size x ≤ (i x).val
      ∧ (i x).val < win0_8.index t x * S512x1024.size x + S512x1024.size x := by
  show i ∈ ((View.whole main_v10_1).slice (win0_8.rect t)).set ↔ _
  rw [View.set_slice_whole, Rect.mem_set_unit]
  exact Iff.rfl

/-- Every index of the array is in some point's block: the point of its block of rows. -/
theorem cover0_8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ := onto0_8 ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [mem_blk0_8]
  intro x
  match x with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- The array after the kernel. -/
theorem final0_8 (c : Dev nD) :
    (dat0 V c).arrAt 8 cfg0.N = affine (V c main_v1) (V c main_v3) (V c main_v7) :=
  (dat0 V c).arrAt_eq_of_cover 8 (affine (V c main_v1) (V c main_v3) (V c main_v7)) (fun t _ => flushed0_8 V c t) (cover0_8)

/-! ## The value projection (output window 9) -/

/-- The printed index maps, decided over the grid: the row block moves with the point, the weights and the bias row stay. -/
theorem idx0_9 : ∀ t : Fin cfg0.N,
    win0_0.index t (0 : Fin 2) = win0_9.index t (0 : Fin 2) ∧ win0_0.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) ≤ 15 ∧ win0_9.index t (1 : Fin 2) = 0 :=
  (by decide +kernel : ∀ t : Fin grid0.N, _)

/-- Every block of rows is some point's. -/
theorem onto0_9 : ∀ q0 : Fin 16, ∃ t : Fin cfg0.N, win0_9.index t = ![q0.val, 0] :=
  (by decide +kernel : ∀ q0 : Fin 16, ∃ t : Fin grid0.N, win0_9.index t = ![q0.val, 0])

/-- What point `t` writes back is block `t` of the whole-array function of the arrays as the kernel finds them. -/
theorem flushed0_9 (c : Dev nD) (t : Fin cfg0.N) :
    (dat0 V c).flushed 9 t
      = ((cfg0.win 9).blk t).view.read (Elt Ideal) (affine (V c main_v1) (V c main_v4) (V c main_v8)) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx0_9 t
  funext j
  obtain ⟨r, q, rfl⟩ : ∃ (r : Fin 512) (q : Fin 1024), j = ix2 r q := ⟨j 0, j 1, eq_ix2 j⟩
  show k0_pay4 (iblk0 V c 0 t) (iblk0 V c 5 t) (iblk0 V c 6 t) (ix2 r q)
      = affine (V c main_v1) (V c main_v4) (V c main_v8) (((cfg0.win 9).blk t).view.emb (ix2 r q))
  refine (Body.pay_v_apply (iblk0 V c 0 t) (iblk0 V c 5 t) (iblk0 V c 6 t) r q).trans ?_
  have hrow : win0_9.index t (0 : Fin 2) * 512 + 1 * r.val < 8192 := by omega
  have hi : ((cfg0.win 9).blk t).view.emb (ix2 r q)
      = ix2 (⟨win0_9.index t (0 : Fin 2) * 512 + 1 * r.val, hrow⟩ : Fin 8192) q := by
    funext x; apply Fin.ext
    match x with
    | ⟨0, _⟩ => rfl
    | ⟨1, _⟩ => show win0_9.index t (1 : Fin 2) * 1024 + 1 * q.val = q.val; omega
  rw [hi, affine_ix2]
  have hx : ∀ k : Fin 1024, iblk0 V c 0 t (ix2 r k)
      = V c main_v1 (ix2 (⟨win0_9.index t (0 : Fin 2) * 512 + 1 * r.val, hrow⟩ : Fin 8192) k) := fun k => by
    show V c main_v1 (((cfg0.win 0).blk t).view.emb (ix2 r k)) = _
    refine congrArg (V c main_v1) (funext fun x => Fin.ext ?_)
    match x with
    | ⟨0, _⟩ => show win0_0.index t (0 : Fin 2) * 512 + 1 * r.val = win0_9.index t (0 : Fin 2) * 512 + 1 * r.val; omega
    | ⟨1, _⟩ => show win0_0.index t (1 : Fin 2) * 1024 + 1 * k.val = k.val; omega
  have hw : ∀ k : Fin 1024, iblk0 V c 5 t (ix2 q k) = V c main_v4 (ix2 q k) := fun k => by
    show V c main_v4 (((cfg0.win 5).blk t).view.emb (ix2 q k)) = _
    refine congrArg (V c main_v4) (funext fun x => Fin.ext ?_)
    match x with
    | ⟨0, _⟩ => show win0_5.index t (0 : Fin 2) * 1024 + 1 * q.val = q.val; omega
    | ⟨1, _⟩ => show win0_5.index t (1 : Fin 2) * 1024 + 1 * k.val = k.val; omega
  have hb : iblk0 V c 6 t (ix2 (0 : Fin 1) q) = V c main_v8 (ix2 (0 : Fin 1) q) := by
    show V c main_v8 (((cfg0.win 6).blk t).view.emb (ix2 (0 : Fin 1) q)) = _
    refine congrArg (V c main_v8) (funext fun x => Fin.ext ?_)
    match x with
    | ⟨0, _⟩ => show win0_6.index t (0 : Fin 2) * 1 + 1 * 0 = 0; omega
    | ⟨1, _⟩ => show win0_6.index t (1 : Fin 2) * 1024 + 1 * q.val = q.val; omega
  rw [hb]
  refine congrArg (· + V c main_v8 (ix2 (0 : Fin 1) q)) (Finset.sum_congr rfl fun k _ => ?_)
  rw [hx k, hw k]

/-- An index of the array is in point `t`'s block iff each coordinate is in the block's range on its axis. -/
theorem mem_blk0_9 (t : Fin cfg0.N) (i : S8192x1024.Idx) :
    i ∈ ((cfg0.win 9).blk t).view.set ↔ ∀ x : Fin 2, win0_9.index t x * S512x1024.size x ≤ (i x).val
      ∧ (i x).val < win0_9.index t x * S512x1024.size x + S512x1024.size x := by
  show i ∈ ((View.whole main_v10_2).slice (win0_9.rect t)).set ↔ _
  rw [View.set_slice_whole, Rect.mem_set_unit]
  exact Iff.rfl

/-- Every index of the array is in some point's block: the point of its block of rows. -/
theorem cover0_9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ := onto0_9 ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [mem_blk0_9]
  intro x
  match x with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- The array after the kernel. -/
theorem final0_9 (c : Dev nD) :
    (dat0 V c).arrAt 9 cfg0.N = affine (V c main_v1) (V c main_v4) (V c main_v8) :=
  (dat0 V c).arrAt_eq_of_cover 9 (affine (V c main_v1) (V c main_v4) (V c main_v8)) (fun t _ => flushed0_9 V c t) (cover0_9)

end Cert.KernelIdeal.Regions

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibRowReduce.lean ====
/-
  Readings, at indices given by coordinates, of the operations a row-wise softmax kernel and its host reference meet beyond
  the column reductions of `LibRowColumn`:
  • a `vector.multi_reduction <maximumf>` / `<add>` of a `[a, b]` matrix ALONG its rows (axis 1), at row `r`: the fold of
    `max` from the accumulator, resp. the sum, over `k : Fin b` of the entries `(r, k)`;
  • the host's `stablehlo.reduce` with a maximum body of a `[B, L, N]` array over its last axis, at `(b, r)`: the fold of
    `max` from the initial value over `k : Fin N` of the entries `(b, r, k)`;
  • a `[n, k]` matrix transposed to `[k, n]` reads, at `(d, c)`, the entry `(c, d)`;
  • a `[1, a, b]` block cast to the matrix `[a, b]` reads, at `(r, c)`, the entry `(0, r, c)`, and back.
-/
import proofs.«171669_j62259845923177_2_alg».proof.Proof.LibRowColumn

namespace Idealize.ShloMosaic.RowReduce

open Idealize.ShloMosaic Idealize.ShloMosaic.ValueIdx

variable {φ : FTy}

/-- The maximum along row `r` of a `[a, b]` matrix, as a kernel's `multi_reduction <maximumf>` over the columns computes it. -/
theorem multiReduction_maximumf_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (RowColumn.lift_cols h r k))

/-- The sum along row `r` of a `[a, b]` matrix, as a kernel's `multi_reduction <add>` over the columns computes it. -/
theorem multiReduction_add_cols {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (RowColumn.lift_cols h r k)

/-- Entry `(b, r)` of the reduced array with the last coordinate `k` put back is `(b, r, k)`. -/
theorem lift_last3 {B L N : ℕ} (h : (⟨3, ![B, L, N]⟩ : Shape).Reduces [2] (⟨2, ![B, L]⟩ : Shape)) (b : Fin B) (r : Fin L)
    (k : Fin ((⟨3, ![B, L, N]⟩ : Shape).size 2)) : h.lift (ix2 b r) k = ix3 b r (⟨k.val, k.isLt⟩ : Fin N) := by
  funext d; apply Fin.ext
  fin_cases d <;> rfl

/-- The maximum over the last axis of a `[B, L, N]` array at `(b, r)`, as the host's `stablehlo.reduce` with a maximum body
    computes it from the initial value `init`. -/
theorem hostReduce_maximumf_last3 {B L N : ℕ} {u : Shape} (x : FVec Ideal ⟨3, ![B, L, N]⟩ φ) (init : FVec Ideal u φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduce FloatOps.maximumf x init h' hu (ix2 b r)
      = (Finset.univ : Finset (Fin N)).fold max (init (Shape.Idx.first hu)) (fun k => x (ix3 b r k)) := by
  rw [Host.reduce_eq_fold_single FloatOps.maximumf x init h' h hu]
  exact congrArg (fun f => Finset.fold max (init (Shape.Idx.first hu)) f (Finset.univ : Finset (Fin N)))
    (funext fun k => congrArg x (lift_last3 h b r k))

/-- A `[n, k]` matrix transposed to `[k, n]` reads, at `(d, c)`, the entry `(c, d)`. -/
theorem transpose_10_apply {α : Type} {n k : ℕ} (x : (⟨2, ![n, k]⟩ : Shape).Idx → α)
    (h : (⟨2, ![n, k]⟩ : Shape).Transposes [1, 0] ⟨2, ![k, n]⟩) (d : Fin k) (c : Fin n) :
    transpose ⟨2, ![k, n]⟩ [1, 0] x h (ix2 d c) = x (ix2 c d) :=
  transpose_apply [1, 0] x h (ix2 d c) (ix2 c d) (fun b => by
    match b with
    | ⟨0, _⟩ => rfl
    | ⟨1, _⟩ => rfl)

/-- A `[1, a, b]` block cast to the matrix `[a, b]` reads, at `(r, c)`, the block's entry `(0, r, c)`. -/
theorem shapeCast_1ab_ab_apply {α : Type} {a b : ℕ} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

end Idealize.ShloMosaic.RowReduce
-- ==== Proof.LibLastAxis.lean ====
/-
  A softmax along the LAST axis of a rank-3 array `[B, L, N]`, operation by operation, read at indices given by coordinates —
  for a kernel body (`vector.multi_reduction`, `vector.broadcast`) and for the host (`stablehlo.reduce`,
  `stablehlo.broadcast_in_dim`):
  • the maximum / the sum over the last axis at `(b, r)`: the fold of `max` from the accumulator, resp. the sum, over
    `k : Fin N` of the entries `(b, r, k)` (the host's sum adds its initial value in front);
  • the reduced `[B, L]` array kept as `[B, L, 1]` and broadcast back to `[B, L, N]` reads, at `(b, r, k)`, the entry
    `(b, r)` (kernel: a broadcast along the unit axis; host: two `broadcast_in_dim`s);
  • a rank-0 value broadcast to any shape is that value everywhere; a `[c]` vector lifted to `[1, 1, c]` and broadcast to
    `[a, b, c]` (a bias row added to every row) reads, at `(i, j, k)`, the entry `k`.
-/
import proofs.«171669_j62259845923177_2_alg».proof.Proof.LibRowReduce

namespace Idealize.ShloMosaic.LastAxis

open Idealize.ShloMosaic Idealize.ShloMosaic.ValueIdx

variable {φ : FTy} {α : Type} {B L N : ℕ}

/-- The maximum over the last axis at `(b, r)`, as a kernel's `multi_reduction <maximumf>` computes it. -/
theorem multiReduction_maximumf_last3 (src : FVec Ideal ⟨3, ![B, L, N]⟩ φ) (acc : BitVec φ.bits)
    (h : (⟨3, ![B, L, N]⟩ : Shape).Reduces [2] (⟨2, ![B, L]⟩ : Shape)) (hφ : FKind.Formats φ)
    (hacc : acc = FKind.maximumf.neutral φ hφ) (b : Fin B) (r : Fin L) :
    multiReduction .maximumf [2] ⟨2, ![B, L]⟩ src acc h hφ hacc (ix2 b r)
      = (Finset.univ : Finset (Fin N)).fold max (Ideal.ofBits φ acc) (fun k => src (ix3 b r k)) := by
  rw [Ideal.multiReduction_maximumf_single]
  exact congrArg (fun f => Finset.fold max (Ideal.ofBits φ acc) f (Finset.univ : Finset (Fin N)))
    (funext fun k => congrArg src (RowReduce.lift_last3 h b r k))

/-- The sum over the last axis at `(b, r)`, as a kernel's `multi_reduction <add>` computes it. -/
theorem multiReduction_add_last3 (src : FVec Ideal ⟨3, ![B, L, N]⟩ φ) (acc : BitVec φ.bits)
    (h : (⟨3, ![B, L, N]⟩ : Shape).Reduces [2] (⟨2, ![B, L]⟩ : Shape)) (hφ : FKind.Formats φ)
    (hacc : acc = FKind.add.neutral φ hφ) (b : Fin B) (r : Fin L) :
    multiReduction .add [2] ⟨2, ![B, L]⟩ src acc h hφ hacc (ix2 b r) = ∑ k : Fin N, src (ix3 b r k) := by
  rw [Ideal.multiReduction_add_single]
  exact Finset.sum_congr rfl fun k _ => congrArg src (RowReduce.lift_last3 h b r k)

/-- The host's float sum over the last axis at `(b, r)`: the initial value plus the sum. -/
theorem hostReduceAdd_last3 {u : Shape} (x : FVec Ideal ⟨3, ![B, L, N]⟩ φ) (init : u.Idx → Ideal φ)
    (h' : (⟨3, ![B, L, N]⟩ : Shape).ReducesTo [2] (⟨2, ![B, L]⟩ : Shape))
    (h : (⟨3, ![B, L, N]⟩ : Shape).Reduces [2] (⟨2, ![B, L]⟩ : Shape)) (hu : 0 < u.numel) (b : Fin B) (r : Fin L) :
    Host.reduceAdd x init h' hu (ix2 b r) = init (Shape.Idx.first hu) + ∑ k : Fin N, x (ix3 b r k) := by
  show Ideal.hostReduceAdd h' x (init (Shape.Idx.first hu)) (ix2 b r) = _
  rw [Ideal.hostReduceAdd_single h' h]
  exact congrArg (init (Shape.Idx.first hu) + ·) (Finset.sum_congr rfl fun k _ => congrArg x (RowReduce.lift_last3 h b r k))

/-- A `[B, L, 1]` array broadcast along its unit axis to `[B, L, N]` (a kernel's `vector.broadcast`) reads, at `(b, r, k)`,
    the entry `(b, r, 0)`. -/
theorem broadcastTo_ab1_abc_apply (v : (⟨3, ![B, L, 1]⟩ : Shape).Idx → α) (h : (⟨3, ![B, L, 1]⟩ : Shape).Broadcasts ⟨3, ![B, L, N]⟩)
    (b : Fin B) (r : Fin L) (k : Fin N) : broadcastTo ⟨3, ![B, L, N]⟩ v h (ix3 b r k) = v (ix3 b r (0 : Fin 1)) := by
  refine broadcastTo_apply v h (ix3 b r k) (ix3 b r (0 : Fin 1)) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl
  | ⟨2, _⟩ => rfl

/-- The host's lift of a `[B, L]` array to `[B, L, 1]` (`broadcast_in_dim`, dims `[0, 1]`) reads, at `(b, r, u)`, the
    entry `(b, r)`. -/
theorem broadcastInDim_ab_ab1_apply (x : (⟨2, ![B, L]⟩ : Shape).Idx → α)
    (h : (⟨2, ![B, L]⟩ : Shape).BroadcastsInDim ⟨3, ![B, L, 1]⟩ (![0, 1] : Fin 2 → Fin 3)) (b : Fin B) (r : Fin L) (u : Fin 1) :
    broadcastInDim ⟨3, ![B, L, 1]⟩ ![0, 1] h x (ix3 b r u) = x (ix2 b r) := by
  refine broadcastInDim_apply _ h x (ix3 b r u) (ix2 b r) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl

/-- The host's broadcast of `[B, L, 1]` to `[B, L, N]` (`broadcast_in_dim`, dims `[0, 1, 2]`) reads, at `(b, r, k)`, the
    entry `(b, r, 0)`. -/
theorem broadcastInDim_ab1_abc_apply (x : (⟨3, ![B, L, 1]⟩ : Shape).Idx → α)
    (h : (⟨3, ![B, L, 1]⟩ : Shape).BroadcastsInDim ⟨3, ![B, L, N]⟩ (![0, 1, 2] : Fin 3 → Fin 3)) (b : Fin B) (r : Fin L) (k : Fin N) :
    broadcastInDim ⟨3, ![B, L, N]⟩ ![0, 1, 2] h x (ix3 b r k) = x (ix3 b r (0 : Fin 1)) := by
  refine broadcastInDim_apply _ h x (ix3 b r k) (ix3 b r (0 : Fin 1)) fun ax => ?_
  match ax with
  | ⟨0, _⟩ =>
    show b.val = if B = 1 then 0 else b.val
    split
    · have := b.isLt; omega
    · rfl
  | ⟨1, _⟩ =>
    show r.val = if L = 1 then 0 else r.val
    split
    · have := r.isLt; omega
    · rfl
  | ⟨2, _⟩ => rfl

/-- A rank-0 value broadcast to any shape (`broadcast_in_dim`, no dims) is that value at every index. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A `[c]` vector lifted to `[1, 1, c]` (`broadcast_in_dim`, dims `[2]`) reads, at `(u, w, k)`, the entry `k`. -/
theorem broadcastInDim_c_11c_apply {c : ℕ} (x : (⟨1, ![c]⟩ : Shape).Idx → α)
    (h : (⟨1, ![c]⟩ : Shape).BroadcastsInDim ⟨3, ![1, 1, c]⟩ (![2] : Fin 1 → Fin 3)) (u w : Fin 1) (k : Fin c) :
    broadcastInDim ⟨3, ![1, 1, c]⟩ ![2] h x (ix3 u w k) = x (ix1 k) := by
  refine broadcastInDim_apply _ h x (ix3 u w k) (ix1 k) fun ax => ?_
  match ax with
  | ⟨0, _⟩ =>
    show k.val = if c = 1 then 0 else k.val
    split
    · have := k.isLt; omega
    · rfl

/-- A `[1, 1, c]` row broadcast to `[a, b, c]` (`broadcast_in_dim`, dims `[0, 1, 2]`) reads, at `(i, j, k)`, the entry
    `(0, 0, k)`. -/
theorem broadcastInDim_11c_abc_apply {a b c : ℕ} (x : (⟨3, ![1, 1, c]⟩ : Shape).Idx → α)
    (h : (⟨3, ![1, 1, c]⟩ : Shape).BroadcastsInDim ⟨3, ![a, b, c]⟩ (![0, 1, 2] : Fin 3 → Fin 3)) (i : Fin a) (j : Fin b) (k : Fin c) :
    broadcastInDim ⟨3, ![a, b, c]⟩ ![0, 1, 2] h x (ix3 i j k) = x (ix3 (0 : Fin 1) (0 : Fin 1) k) := by
  refine broadcastInDim_apply _ h x (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Idealize.ShloMosaic.LastAxis
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.LibTrailingUnit.lean ====
/-
  A trailing axis of extent 1 added by a shape cast.

  A sum along the last axis that keeps that axis with extent 1 (a keepdims reduction) is printed as the reduction followed
  by a cast from [a, b] to [a, b, 1], or from [a, b, c] to [a, b, c, 1]. Multiplying a row-major position by 1 and adding 0
  leaves it unchanged, so the cast reads, at (i, j, 0) or (i, j, k, 0), the operand at (i, j) or (i, j, k). Any extents.
-/
import Idealize.ShloMosaic.Lib.ValueIdx
import Idealize.ShloMosaic.Lib.Pipeline.Value

namespace Idealize.ShloMosaic.TrailingUnit

open Idealize.ShloMosaic Idealize.ShloMosaic.ValueIdx

variable {α : Type}

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, c] array cast to [a, b, c, 1] reads, at (i, j, k, u), the operand at (i, j, k). -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

end Idealize.ShloMosaic.TrailingUnit
-- ==== Proof.LibSoftmax.lean ====
/-
  The body of a kernel's softmax along the last axis, read at an index given by coordinates: from an array `x` and a row
  maximum `mx` kept with a trailing unit axis and broadcast back, the exponentials `exp (x − mx)`, their sum along the last axis
  (a `vector.multi_reduction <add>`, kept with a trailing unit axis and broadcast back), and the quotient. At `(b, r, k)` the
  result is `exp (x (b,r,k) − mx (b,r)) / Σ_k' exp (x (b,r,k') − mx (b,r))` — for a rank-3 array `[B, L, N]` reduced to
  `[B, L]` and for a matrix `[M, N]` reduced to `[M]`.
-/
import proofs.«171669_j62259845923177_2_alg».proof.Proof.LibLastAxis
import proofs.«171669_j62259845923177_2_alg».proof.Proof.LibColumn
import proofs.«171669_j62259845923177_2_alg».proof.Proof.LibTrailingUnit

namespace Idealize.ShloMosaic.Softmax

open Idealize.ShloMosaic Idealize.ShloMosaic.ValueIdx

section rank3
variable {B L N : ℕ}

/-- The exponentials of a rank-3 array minus its broadcast row maxima. -/
theorem exps3_apply (x : FVec Ideal ⟨3, ![B, L, N]⟩ .f32) (mx : FVec Ideal ⟨2, ![B, L]⟩ .f32)
    (hc : (⟨2, ![B, L]⟩ : Shape).ShapeCasts ⟨3, ![B, L, 1]⟩) (hb : (⟨3, ![B, L, 1]⟩ : Shape).Broadcasts ⟨3, ![B, L, N]⟩)
    (b : Fin B) (r : Fin L) (k : Fin N) :
    exp (subf x (broadcastTo ⟨3, ![B, L, N]⟩ (shapeCast ⟨3, ![B, L, 1]⟩ mx hc) hb)) (ix3 b r k)
      = Ideal.exp (x (ix3 b r k) - mx (ix2 b r)) := by
  show Ideal.exp (x (ix3 b r k) - broadcastTo ⟨3, ![B, L, N]⟩ (shapeCast ⟨3, ![B, L, 1]⟩ mx hc) hb (ix3 b r k)) = _
  rw [LastAxis.broadcastTo_ab1_abc_apply, TrailingUnit.shapeCast_ab_ab1_apply]

/-- The quotient of the exponentials by their row sums. -/
theorem softmax3_apply (x : FVec Ideal ⟨3, ![B, L, N]⟩ .f32) (mx : FVec Ideal ⟨2, ![B, L]⟩ .f32)
    (hc : (⟨2, ![B, L]⟩ : Shape).ShapeCasts ⟨3, ![B, L, 1]⟩) (hb : (⟨3, ![B, L, 1]⟩ : Shape).Broadcasts ⟨3, ![B, L, N]⟩)
    (acc : BitVec 32) (hr : (⟨3, ![B, L, N]⟩ : Shape).Reduces [2] (⟨2, ![B, L]⟩ : Shape)) (hφ : FKind.Formats .f32)
    (hacc : acc = FKind.add.neutral .f32 hφ) (b : Fin B) (r : Fin L) (k : Fin N) :
    divf (exp (subf x (broadcastTo ⟨3, ![B, L, N]⟩ (shapeCast ⟨3, ![B, L, 1]⟩ mx hc) hb)))
        (broadcastTo ⟨3, ![B, L, N]⟩ (shapeCast ⟨3, ![B, L, 1]⟩
          (multiReduction .add [2] ⟨2, ![B, L]⟩ (exp (subf x (broadcastTo ⟨3, ![B, L, N]⟩ (shapeCast ⟨3, ![B, L, 1]⟩ mx hc) hb)))
            acc hr hφ hacc) hc) hb) (ix3 b r k)
      = Ideal.div (Ideal.exp (x (ix3 b r k) - mx (ix2 b r))) (∑ k' : Fin N, Ideal.exp (x (ix3 b r k') - mx (ix2 b r))) := by
  rw [divf_apply, LastAxis.broadcastTo_ab1_abc_apply, TrailingUnit.shapeCast_ab_ab1_apply, LastAxis.multiReduction_add_last3,
    exps3_apply]
  simp only [exps3_apply]

end rank3

section rank2
variable {M N : ℕ}

/-- The exponentials of a matrix minus its broadcast row maxima. -/
theorem exps2_apply (x : FVec Ideal ⟨2, ![M, N]⟩ .f32) (mx : FVec Ideal ⟨1, ![M]⟩ .f32)
    (hc : (⟨1, ![M]⟩ : Shape).ShapeCasts ⟨2, ![M, 1]⟩) (hb : (⟨2, ![M, 1]⟩ : Shape).Broadcasts ⟨2, ![M, N]⟩)
    (r : Fin M) (k : Fin N) :
    exp (subf x (broadcastTo ⟨2, ![M, N]⟩ (shapeCast ⟨2, ![M, 1]⟩ mx hc) hb)) (ix2 r k)
      = Ideal.exp (x (ix2 r k) - mx (ix1 r)) := by
  show Ideal.exp (x (ix2 r k) - broadcastTo ⟨2, ![M, N]⟩ (shapeCast ⟨2, ![M, 1]⟩ mx hc) hb (ix2 r k)) = _
  rw [Column.broadcastTo_a1_ab_apply, Column.shapeCast_a_a1_apply]

/-- The quotient of the exponentials by their row sums. -/
theorem softmax2_apply (x : FVec Ideal ⟨2, ![M, N]⟩ .f32) (mx : FVec Ideal ⟨1, ![M]⟩ .f32)
    (hc : (⟨1, ![M]⟩ : Shape).ShapeCasts ⟨2, ![M, 1]⟩) (hb : (⟨2, ![M, 1]⟩ : Shape).Broadcasts ⟨2, ![M, N]⟩)
    (acc : BitVec 32) (hr : (⟨2, ![M, N]⟩ : Shape).Reduces [1] (⟨1, ![M]⟩ : Shape)) (hφ : FKind.Formats .f32)
    (hacc : acc = FKind.add.neutral .f32 hφ) (r : Fin M) (k : Fin N) :
    divf (exp (subf x (broadcastTo ⟨2, ![M, N]⟩ (shapeCast ⟨2, ![M, 1]⟩ mx hc) hb)))
        (broadcastTo ⟨2, ![M, N]⟩ (shapeCast ⟨2, ![M, 1]⟩
          (multiReduction .add [1] ⟨1, ![M]⟩ (exp (subf x (broadcastTo ⟨2, ![M, N]⟩ (shapeCast ⟨2, ![M, 1]⟩ mx hc) hb)))
            acc hr hφ hacc) hc) hb) (ix2 r k)
      = Ideal.div (Ideal.exp (x (ix2 r k) - mx (ix1 r))) (∑ k' : Fin N, Ideal.exp (x (ix2 r k') - mx (ix1 r))) := by
  rw [divf_apply, Column.broadcastTo_a1_ab_apply, Column.shapeCast_a_a1_apply, RowReduce.multiReduction_add_cols, exps2_apply]
  simp only [exps2_apply]

end rank2

end Idealize.ShloMosaic.Softmax
-- ==== Proof.Spec.lean ====
/-
  Multi-head self-attention over the extended reals, as ONE function of the nine argument arrays, in coordinates.

  For an input `x[p, s, e]` (4 sequences of 2048 positions, 1024 features), weight matrices `W[f, e]` and bias vectors `b[f]`:
  * a linear layer on the feature axis is `y[p, s, f] = Σ_e x[p, s, e] · W[f, e] + b[f]`;
  * the 1024 features are 16 heads of 64 lanes, feature `c` being lane `c mod 64` of head `c / 64`;
  * the score of query position `q` against key position `k` in head `h` is `(Σ_d Q[p, q, h·64+d] · K[p, k, h·64+d]) · 1/8`;
  * a row of scores is turned into weights by the softmax `exp (s_k − max_k' s_k') / Σ_k' exp (s_k' − max_k'' s_k'')`;
  * the attended value is `Σ_k weight_k · V[p, k, h·64+d]`, laid back at feature `h·64+d`;
  * the result is a last linear layer of the attended values.
  Nothing here needs a finite input: the definitions are terms of `EReal`'s own operations.
-/
import Idealize.ShloMosaic.PureOps.Ideal
import Idealize.ShloMosaic.Lib.ValueIdx

noncomputable section

namespace Cert.Attention

open Idealize.ShloMosaic Idealize.ShloMosaic.ValueIdx

/-- Values per (sequence, position, feature). -/
abbrev Act := Fin 4 → Fin 2048 → Fin 1024 → EReal

/-- The f32 word of 1/8, kept as a word: the scale of the scores. -/
abbrev eighth : EReal := Ideal.ofBits .f32 0x3E000000#32

/-- The f32 word of −∞: where a running maximum starts. -/
abbrev negInf : EReal := Ideal.ofBits .f32 0xFF800000#32

/-- A linear layer on the feature axis: `Σ_e x[p, s, e] · W[f, e] + b[f]`. -/
def linear (x : Act) (W : (⟨2, ![1024, 1024]⟩ : Shape).Idx → EReal) (b : (⟨1, ![1024]⟩ : Shape).Idx → EReal) : Act :=
  fun p s f => (∑ e : Fin 1024, x p s e * W (ix2 f e)) + b (ix1 f)

/-- An array `[4, 2048, 1024]` read by coordinates. -/
def ofArray (x : (⟨3, ![4, 2048, 1024]⟩ : Shape).Idx → EReal) : Act := fun p s e => x (ix3 p s e)

/-- Lane `d` of head `h` is feature `h · 64 + d`. -/
def feat (h : Fin 16) (d : Fin 64) : Fin 1024 := ⟨h.val * 64 + d.val, by omega⟩

/-- The head of a feature. -/
def headOf (c : Fin 1024) : Fin 16 := ⟨c.val / 64, by omega⟩

/-- The lane of a feature inside its head. -/
def laneOf (c : Fin 1024) : Fin 64 := ⟨c.val % 64, by omega⟩

/-- The scaled score of query position `q` against key position `k` in head `h` of sequence `p`. -/
def score (Q K : Act) (p : Fin 4) (h : Fin 16) (q k : Fin 2048) : EReal :=
  (∑ d : Fin 64, Q p q (feat h d) * K p k (feat h d)) * eighth

/-- The largest score of a query position, as a fold of `max` from −∞ over the key positions. -/
def rowMax (Q K : Act) (p : Fin 4) (h : Fin 16) (q : Fin 2048) : EReal :=
  (Finset.univ : Finset (Fin 2048)).fold max negInf (fun k => score Q K p h q k)

/-- The softmax weight of key position `k` for query position `q`. -/
def weight (Q K : Act) (p : Fin 4) (h : Fin 16) (q k : Fin 2048) : EReal :=
  Ideal.div (Ideal.exp (score Q K p h q k - rowMax Q K p h q))
    (∑ k' : Fin 2048, Ideal.exp (score Q K p h q k' - rowMax Q K p h q))

/-- The attended value of lane `d` of head `h` at query position `q`. -/
def attend (Q K V : Act) (p : Fin 4) (h : Fin 16) (q : Fin 2048) (d : Fin 64) : EReal :=
  ∑ k : Fin 2048, weight Q K p h q k * V p k (feat h d)

/-- The attended values laid back along the feature axis. -/
def attended (Q K V : Act) : Act := fun p s c => attend Q K V p (headOf c) s (laneOf c)

/-- The whole layer, in coordinates. -/
def layer (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) : Act :=
  linear (attended (linear (ofArray x) Wq bq) (linear (ofArray x) Wk bk) (linear (ofArray x) Wv bv)) Wo bo

/-- The whole layer as an array `[4, 2048, 1024]`. -/
def result (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨3, ![4, 2048, 1024]⟩ : Shape).Idx → EReal :=
  fun i => layer x Wq bq Wk bk Wv bv Wo bo (i 0) (i 1) (i 2)

theorem result_ix3 (x : (⟨3, ![4, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal)
    (p : Fin 4) (s : Fin 2048) (f : Fin 1024) :
    result x Wq bq Wk bk Wv bv Wo bo (ix3 p s f) = layer x Wq bq Wk bk Wv bv Wo bo p s f := rfl

theorem feat_headOf_laneOf (c : Fin 1024) : feat (headOf c) (laneOf c) = c := by
  apply Fin.ext
  show c.val / 64 * 64 + c.val % 64 = c.val
  omega

end Cert.Attention

end
-- ==== Proof.AttnBody.lean ====
/-
  One head of attention on one block, over the extended reals. From 512 query rows `q[512, 64]`, all 2048 key rows
  `k[2048, 64]` and value rows `v[2048, 64]`:
    score (r, j)  = (Σ_d q (r, d) · k (j, d)) · 1/8,
    weight (r, j) = exp (score (r, j) − max_j' score (r, j')) / Σ_j' exp (score (r, j') − max_j'' score (r, j'')),
    out (r, d)    = Σ_j weight (r, j) · v (j, d).
  The kernel body computes exactly this, twice: for the head in lanes 0–63 and the head in lanes 64–127 of its
  128-lane blocks, and lays the two results side by side. Changes of float format are the identity here.
-/
import proofs.«171669_j62259845923177_2_alg».proof.Proof.Gen.KernelIdeal.Skeleton
import proofs.«171669_j62259845923177_2_alg».proof.Proof.LibDotTransposedRhs
import proofs.«171669_j62259845923177_2_alg».proof.Proof.LibPlainDot
import proofs.«171669_j62259845923177_2_alg».proof.Proof.LibSoftmax
import proofs.«171669_j62259845923177_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## One head in coordinates -/

/-- The scaled score of query row `r` against key row `j`. -/
def hscore (q : Fin 512 → Fin 64 → EReal) (k : Fin 2048 → Fin 64 → EReal) (r : Fin 512) (j : Fin 2048) : EReal :=
  (∑ d : Fin 64, q r d * k j d) * Cert.Attention.eighth

/-- The largest score of query row `r`. -/
def hmax (q : Fin 512 → Fin 64 → EReal) (k : Fin 2048 → Fin 64 → EReal) (r : Fin 512) : EReal :=
  (Finset.univ : Finset (Fin 2048)).fold max Cert.Attention.negInf (fun j => hscore q k r j)

/-- The softmax weight of key row `j` for query row `r`. -/
def hweight (q : Fin 512 → Fin 64 → EReal) (k : Fin 2048 → Fin 64 → EReal) (r : Fin 512) (j : Fin 2048) : EReal :=
  Ideal.div (Ideal.exp (hscore q k r j - hmax q k r)) (∑ j' : Fin 2048, Ideal.exp (hscore q k r j' - hmax q k r))

/-- The attended value of lane `d` at query row `r`. -/
def hout (q : Fin 512 → Fin 64 → EReal) (k v : Fin 2048 → Fin 64 → EReal) (r : Fin 512) (d : Fin 64) : EReal :=
  ∑ j : Fin 2048, hweight q k r j * v j d

/-! ## The body's terms -/

/-- The scaled scores as the body computes them. -/
def scoresT (q : FVec Ideal S512x64 .bf16) (k : FVec Ideal S2048x64 .bf16) : FVec Ideal S512x2048 .f32 :=
  mulf (matmul dot_S512x64_S2048x64_S512x2048_1_1_0_0_n_n none q k (constant S512x2048 .f32 0x00000000#32))
    (broadcast S512x2048 (Scalar.ofBits .f32 0x3E000000#32))

theorem scoresT_apply (q : FVec Ideal S512x64 .bf16) (k : FVec Ideal S2048x64 .bf16) (r : Fin 512) (j : Fin 2048) :
    scoresT q k (ix2 r j) = hscore (fun r d => q (ix2 r d)) (fun j d => k (ix2 j d)) r j := by
  unfold scoresT hscore
  show matmul dot_S512x64_S2048x64_S512x2048_1_1_0_0_n_n none q k (constant S512x2048 .f32 0x00000000#32) (ix2 r j)
      * Cert.Attention.eighth = _
  exact congrArg (· * Cert.Attention.eighth)
    (DotTransposedRhs.matmul_apply_ix2 (M := 512) (K := 64) (N := 2048) none q k r j)

/-- The row softmax as the body computes it: row maxima, exponentials, row sums, quotient. -/
def softT (s : FVec Ideal S512x2048 .f32) : FVec Ideal S512x2048 .f32 :=
  divf (exp (subf s (broadcastTo S512x2048 (shapeCast S512x1
          (multiReduction .maximumf [1] S512 s 0xFF800000#32 reduces_S512x2048_S512 (.inl rfl) rfl)
          shapeCasts_S512_S512x1) broadcasts_S512x1_S512x2048)))
    (broadcastTo S512x2048 (shapeCast S512x1
      (multiReduction .add [1] S512
        (exp (subf s (broadcastTo S512x2048 (shapeCast S512x1
          (multiReduction .maximumf [1] S512 s 0xFF800000#32 reduces_S512x2048_S512 (.inl rfl) rfl)
          shapeCasts_S512_S512x1) broadcasts_S512x1_S512x2048)))
        0x00000000#32 reduces_S512x2048_S512 (.inl rfl) rfl)
      shapeCasts_S512_S512x1) broadcasts_S512x1_S512x2048)

theorem softT_apply (s : FVec Ideal S512x2048 .f32) (r : Fin 512) (j : Fin 2048) :
    softT s (ix2 r j)
      = Ideal.div (Ideal.exp (s (ix2 r j) - (Finset.univ : Finset (Fin 2048)).fold max Cert.Attention.negInf (fun j' => s (ix2 r j'))))
          (∑ j' : Fin 2048, Ideal.exp (s (ix2 r j') - (Finset.univ : Finset (Fin 2048)).fold max Cert.Attention.negInf (fun j'' => s (ix2 r j'')))) := by
  have hm := RowReduce.multiReduction_maximumf_cols (a := 512) (b := 2048) s 0xFF800000#32 reduces_S512x2048_S512
    (.inl rfl) rfl r
  unfold softT
  refine (Softmax.softmax2_apply (M := 512) (N := 2048) s
    (multiReduction .maximumf [1] S512 s 0xFF800000#32 reduces_S512x2048_S512 (.inl rfl) rfl)
    shapeCasts_S512_S512x1 broadcasts_S512x1_S512x2048 0x00000000#32 reduces_S512x2048_S512 (.inl rfl) rfl r j).trans ?_
  rw [hm]

/-- One head's output as the body computes it. -/
def headT (q : FVec Ideal S512x64 .bf16) (k v : FVec Ideal S2048x64 .bf16) : FVec Ideal S512x64 .f32 :=
  matmul dot_S512x2048_S2048x64_S512x64_1_0_0_1_n_n none (truncf .bf16 (softT (scoresT q k)) bitsLt_bf16_f32) v
    (constant S512x64 .f32 0x00000000#32)

theorem headT_apply (q : FVec Ideal S512x64 .bf16) (k v : FVec Ideal S2048x64 .bf16) (r : Fin 512) (d : Fin 64) :
    headT q k v (ix2 r d) = hout (fun r d => q (ix2 r d)) (fun j d => k (ix2 j d)) (fun j d => v (ix2 j d)) r d := by
  unfold headT hout
  refine (PlainDot.matmul_apply_ix2 (M := 512) (K := 2048) (N := 64) none _ v r d).trans ?_
  refine Finset.sum_congr rfl fun j _ => ?_
  refine congrArg (· * v (ix2 j d)) ?_
  show softT (scoresT q k) (ix2 r j) = _
  rw [softT_apply]
  simp only [scoresT_apply]
  rfl

end Cert.KernelIdeal.Body

end
-- ==== Proof.AttnBlock.lean ====
/-
  What the attention kernel stores for one block, read at coordinates. The block of queries is `[1, 512, 128]`, the
  blocks of keys and values `[1, 2048, 128]`: the leading unit axis is dropped, lanes 0–63 are one head and lanes
  64–127 the next, each head is attended on its own 64 lanes, and the two `[512, 64]` results are laid side by side
  again under a leading unit axis. So the stored entry `(0, r, l)` is the attended value of the head that owns lane `l`,
  computed from that head's lanes of the three input blocks.
-/
import proofs.«171669_j62259845923177_2_alg».proof.Proof.AttnBody

noncomputable section

namespace Cert.KernelIdeal.Body

open Cert.KernelIdeal Cert.KernelIdeal.Gen Idealize.ShloMosaic Idealize.ShloMosaic.ValueIdx

/-- Lane `d` of the first head of a 128-lane block. -/
def laneA (d : Fin 64) : Fin 128 := ⟨d.val, by omega⟩
/-- Lane `d` of the second head of a 128-lane block. -/
def laneB (d : Fin 64) : Fin 128 := ⟨64 + d.val, by omega⟩

/-! ## Dropping and adding the leading unit axis -/

theorem castQ_apply (x : Vec Ideal S1x512x128 .bf16) (r : Fin 512) (l : Fin 128) :
    k1_pay2 x (ix2 r l) = x (ix3 (0 : Fin 1) r l) :=
  RowReduce.shapeCast_1ab_ab_apply (a := 512) (b := 128) x shapeCasts_S1x512x128_S512x128 r l

theorem castK_apply (x : Vec Ideal S1x2048x128 .bf16) (j : Fin 2048) (l : Fin 128) :
    k1_pay3 x (ix2 j l) = x (ix3 (0 : Fin 1) j l) :=
  RowReduce.shapeCast_1ab_ab_apply (a := 2048) (b := 128) x shapeCasts_S1x2048x128_S2048x128 j l

theorem castV_apply (x : Vec Ideal S1x2048x128 .bf16) (j : Fin 2048) (l : Fin 128) :
    k1_pay4 x (ix2 j l) = x (ix3 (0 : Fin 1) j l) :=
  RowReduce.shapeCast_1ab_ab_apply (a := 2048) (b := 128) x shapeCasts_S1x2048x128_S2048x128 j l

theorem addUnit_apply {φ : FTy} (v : FVec Ideal S512x128 φ) (r : Fin 512) (l : Fin 128) :
    shapeCast S1x512x128 v shapeCasts_S512x128_S1x512x128 (ix3 (0 : Fin 1) r l) = v (ix2 r l) := by
  refine (shapeCast_addUnit_apply ![512, 128] v shapeCasts_S512x128_S1x512x128 (ix3 (0 : Fin 1) r l)).trans ?_
  refine congrArg v (funext fun a => ?_)
  match a with
  | ⟨0, _⟩ => rfl
  | ⟨1, _⟩ => rfl

/-! ## The two 64-lane slices -/

theorem sliceA512_apply (y : FVec Ideal S512x128 .bf16) (r : Fin 512) (d : Fin 64) :
    extractStridedSlice S512x64 ![0, 0] y slices_S512x128_o0_0_S512x64 (ix2 r d) = y (ix2 r (laneA d)) :=
  extractStridedSlice_apply ![0, 0] y slices_S512x128_o0_0_S512x64 (ix2 r d) (ix2 r (laneA d)) (fun a => by
    match a with
    | ⟨0, _⟩ => show r.val = 0 + r.val; omega
    | ⟨1, _⟩ => show d.val = 0 + d.val; omega)

theorem sliceB512_apply (y : FVec Ideal S512x128 .bf16) (r : Fin 512) (d : Fin 64) :
    extractStridedSlice S512x64 ![0, 64] y slices_S512x128_o0_64_S512x64 (ix2 r d) = y (ix2 r (laneB d)) :=
  extractStridedSlice_apply ![0, 64] y slices_S512x128_o0_64_S512x64 (ix2 r d) (ix2 r (laneB d)) (fun a => by
    match a with
    | ⟨0, _⟩ => show r.val = 0 + r.val; omega
    | ⟨1, _⟩ => show 64 + d.val = 64 + d.val; rfl)

theorem sliceA2048_apply (y : FVec Ideal S2048x128 .bf16) (j : Fin 2048) (d : Fin 64) :
    extractStridedSlice S2048x64 ![0, 0] y slices_S2048x128_o0_0_S2048x64 (ix2 j d) = y (ix2 j (laneA d)) :=
  extractStridedSlice_apply ![0, 0] y slices_S2048x128_o0_0_S2048x64 (ix2 j d) (ix2 j (laneA d)) (fun a => by
    match a with
    | ⟨0, _⟩ => show j.val = 0 + j.val; omega
    | ⟨1, _⟩ => show d.val = 0 + d.val; omega)

theorem sliceB2048_apply (y : FVec Ideal S2048x128 .bf16) (j : Fin 2048) (d : Fin 64) :
    extractStridedSlice S2048x64 ![0, 64] y slices_S2048x128_o0_64_S2048x64 (ix2 j d) = y (ix2 j (laneB d)) :=
  extractStridedSlice_apply ![0, 64] y slices_S2048x128_o0_64_S2048x64 (ix2 j d) (ix2 j (laneB d)) (fun a => by
    match a with
    | ⟨0, _⟩ => show j.val = 0 + j.val; omega
    | ⟨1, _⟩ => show 64 + d.val = 64 + d.val; rfl)

/-! ## The stored block -/

/-- The first head's operands: lanes 0–63 of the three blocks. -/
abbrev qA (x0 : Vec Ideal S1x512x128 .bf16) : FVec Ideal S512x64 .bf16 :=
  extractStridedSlice S512x64 ![0, 0] (k1_pay2 x0) slices_S512x128_o0_0_S512x64
abbrev kA (x1 : Vec Ideal S1x2048x128 .bf16) : FVec Ideal S2048x64 .bf16 :=
  extractStridedSlice S2048x64 ![0, 0] (k1_pay3 x1) slices_S2048x128_o0_0_S2048x64
abbrev vA (x2 : Vec Ideal S1x2048x128 .bf16) : FVec Ideal S2048x64 .bf16 :=
  extractStridedSlice S2048x64 ![0, 0] (k1_pay4 x2) slices_S2048x128_o0_0_S2048x64
/-- The second head's operands: lanes 64–127. -/
abbrev qB (x0 : Vec Ideal S1x512x128 .bf16) : FVec Ideal S512x64 .bf16 :=
  extractStridedSlice S512x64 ![0, 64] (k1_pay2 x0) slices_S512x128_o0_64_S512x64
abbrev kB (x1 : Vec Ideal S1x2048x128 .bf16) : FVec Ideal S2048x64 .bf16 :=
  extractStridedSlice S2048x64 ![0, 64] (k1_pay3 x1) slices_S2048x128_o0_64_S2048x64
abbrev vB (x2 : Vec Ideal S1x2048x128 .bf16) : FVec Ideal S2048x64 .bf16 :=
  extractStridedSlice S2048x64 ![0, 64] (k1_pay4 x2) slices_S2048x128_o0_64_S2048x64

/-- The body's stored value is the two heads' outputs side by side under a leading unit axis. -/
theorem stored_eq (x0 : Vec Ideal S1x512x128 .bf16) (x1 x2 : Vec Ideal S1x2048x128 .bf16) :
    k1_pay1 (k1_pay5 x0 x1 x2) (k1_pay6 x2) (k1_pay7 x0 x1)
      = shapeCast S1x512x128 (truncf .bf16 (concatenate S512x128 1
          [⟨S512x64, headT (qA x0) (kA x1) (vA x2)⟩, ⟨S512x64, headT (qB x0) (kB x1) (vB x2)⟩]
          concatenates_S512x64_S512x64_S512x128_d1) bitsLt_bf16_f32) shapeCasts_S512x128_S1x512x128 := rfl

/-- The stored entry at a lane of the first head. -/
theorem stored_apply_A (x0 : Vec Ideal S1x512x128 .bf16) (x1 x2 : Vec Ideal S1x2048x128 .bf16) (r : Fin 512) (d : Fin 64) :
    k1_pay1 (k1_pay5 x0 x1 x2) (k1_pay6 x2) (k1_pay7 x0 x1) (ix3 (0 : Fin 1) r (laneA d))
      = hout (fun r d => x0 (ix3 (0 : Fin 1) r (laneA d))) (fun j d => x1 (ix3 (0 : Fin 1) j (laneA d)))
          (fun j d => x2 (ix3 (0 : Fin 1) j (laneA d))) r d := by
  rw [stored_eq, addUnit_apply]
  show concatenate S512x128 1 [⟨S512x64, headT (qA x0) (kA x1) (vA x2)⟩, ⟨S512x64, headT (qB x0) (kB x1) (vB x2)⟩]
      concatenates_S512x64_S512x64_S512x128_d1 (ix2 r (laneA d)) = _
  refine (concatenate_pair_apply_left (t := S512x128) (s₁ := S512x64) (s₂ := S512x64) (1 : Fin 2)
    (headT (qA x0) (kA x1) (vA x2)) (headT (qB x0) (kB x1) (vB x2))
    concatenates_S512x64_S512x64_S512x128_d1 (ix2 r (laneA d)) rfl (ix2 r d)
    (fun b => by match b with | ⟨0, _⟩ => rfl | ⟨1, _⟩ => rfl)).trans ?_
  rw [headT_apply]
  simp only [qA, kA, vA, sliceA512_apply, sliceA2048_apply, castQ_apply, castK_apply, castV_apply]

/-- The stored entry at a lane of the second head. -/
theorem stored_apply_B (x0 : Vec Ideal S1x512x128 .bf16) (x1 x2 : Vec Ideal S1x2048x128 .bf16) (r : Fin 512) (d : Fin 64) :
    k1_pay1 (k1_pay5 x0 x1 x2) (k1_pay6 x2) (k1_pay7 x0 x1) (ix3 (0 : Fin 1) r (laneB d))
      = hout (fun r d => x0 (ix3 (0 : Fin 1) r (laneB d))) (fun j d => x1 (ix3 (0 : Fin 1) j (laneB d)))
          (fun j d => x2 (ix3 (0 : Fin 1) j (laneB d))) r d := by
  rw [stored_eq, addUnit_apply]
  show concatenate S512x128 1 [⟨S512x64, headT (qA x0) (kA x1) (vA x2)⟩, ⟨S512x64, headT (qB x0) (kB x1) (vB x2)⟩]
      concatenates_S512x64_S512x64_S512x128_d1 (ix2 r (laneB d)) = _
  refine (concatenate_pair_apply_right (t := S512x128) (s₁ := S512x64) (s₂ := S512x64) (1 : Fin 2)
    (headT (qA x0) (kA x1) (vA x2)) (headT (qB x0) (kB x1) (vB x2))
    concatenates_S512x64_S512x64_S512x128_d1 (ix2 r (laneB d)) rfl rfl (ix2 r d)
    (fun b hb => by
      match b with
      | ⟨0, _⟩ => rfl
      | ⟨1, _⟩ => exact absurd rfl hb)
    (by show d.val + 64 = 64 + d.val; omega)).trans ?_
  rw [headT_apply]
  simp only [qB, kB, vB, sliceB512_apply, sliceB2048_apply, castQ_apply, castK_apply, castV_apply]

end Cert.KernelIdeal.Body

end
-- ==== Proof.Region1.lean ====
/-
  The attention kernel as a whole array. Its grid has 4·8·4 points; point (sequence `p`, pair of heads `g`, tile `u`)
  reads rows `512·u … 512·u+511` and lanes `128·g … 128·g+127` of sequence `p` of the queries, ALL 2048 rows of those lanes
  of the keys and values, and writes the same rows and lanes of its output. Lanes `128·g … 128·g+63` are head `2g` and
  lanes `128·g+64 … 128·g+127` are head `2g+1`; an output entry is the attended value of its head, which reads only that
  head's 64 lanes. So each block written back is that block of ONE whole-array function — the attended values of the
  three arrays as the kernel finds them — and the 128 blocks tile the array.
-/
import proofs.«171669_j62259845923177_2_alg».proof.Proof.Gen.KernelIdeal.Frame
import proofs.«171669_j62259845923177_2_alg».proof.Proof.AttnBlock
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)
open Cert.Attention (Act ofArray feat headOf laneOf attend attended)

/-! ## Heads and lanes -/

theorem headOf_feat (h : Fin 16) (d : Fin 64) : headOf (feat h d) = h := by
  apply Fin.ext
  show (h.val * 64 + d.val) / 64 = h.val
  have := d.isLt
  omega

theorem laneOf_feat (h : Fin 16) (d : Fin 64) : laneOf (feat h d) = d := by
  apply Fin.ext
  show (h.val * 64 + d.val) % 64 = d.val
  have := d.isLt
  omega

/-- One head on one tile of 512 query rows IS the specification's attended value there: the tile's rows are rows
    `base … base+511` of the sequence, the head's lanes its features. -/
theorem hout_eq_attend (Q K V : Act) (p : Fin 4) (h : Fin 16) (base : Nat) (hb : base + 512 ≤ 2048) (r : Fin 512) (d : Fin 64) :
    Body.hout (fun r d' => Q p ⟨base + r.val, by have := r.isLt; omega⟩ (feat h d')) (fun j d' => K p j (feat h d'))
        (fun j d' => V p j (feat h d')) r d
      = attend Q K V p h ⟨base + r.val, by have := r.isLt; omega⟩ d := rfl

/-- The attended values of three `[4, 2048, 1024]` arrays, as an array. -/
def attnArr (Q K V : S4x2048x1024.Idx → EReal) : S4x2048x1024.Idx → EReal :=
  fun i => attended (ofArray Q) (ofArray K) (ofArray V) (i 0) (i 1) (i 2)

theorem attnArr_feat (Q K V : S4x2048x1024.Idx → EReal) (p : Fin 4) (s : Fin 2048) (h : Fin 16) (d : Fin 64) :
    attnArr Q K V (ix3 p s (feat h d)) = attend (ofArray Q) (ofArray K) (ofArray V) p h s d := by
  show attend (ofArray Q) (ofArray K) (ofArray V) p (headOf (feat h d)) s (laneOf (feat h d)) = _
  rw [headOf_feat, laneOf_feat]

theorem hz3 : (![0, 0, 0] : Fin 3 → Nat) = fun _ => 0 := funext fun a => by fin_cases a <;> rfl

variable (V : (c : Dev nD) → (b : Ref sig .tc) → Buf (Elt Ideal) ((c : Thread nD τ).loc b))

/-- The printed index maps, decided over the grid: the queries' block moves with the output's; the keys' and values' blocks
    follow its sequence and its pair of heads and always start at row 0. -/
theorem idx1_3 : ∀ t : Fin cfg1.N,
    win1_0.index t (0 : Fin 3) = win1_3.index t (0 : Fin 3) ∧ win1_0.index t (1 : Fin 3) = win1_3.index t (1 : Fin 3)
    ∧ win1_0.index t (2 : Fin 3) = win1_3.index t (2 : Fin 3)
    ∧ win1_1.index t (0 : Fin 3) = win1_3.index t (0 : Fin 3) ∧ win1_1.index t (1 : Fin 3) = 0
    ∧ win1_1.index t (2 : Fin 3) = win1_3.index t (2 : Fin 3)
    ∧ win1_2.index t (0 : Fin 3) = win1_3.index t (0 : Fin 3) ∧ win1_2.index t (1 : Fin 3) = 0
    ∧ win1_2.index t (2 : Fin 3) = win1_3.index t (2 : Fin 3)
    ∧ win1_3.index t (0 : Fin 3) ≤ 3 ∧ win1_3.index t (1 : Fin 3) ≤ 3 ∧ win1_3.index t (2 : Fin 3) ≤ 7 :=
  (by decide +kernel : ∀ t : Fin grid1.N, _)

/-- Every block of the output is some point's. -/
theorem onto1_3 : ∀ (q0 : Fin 4) (q1 : Fin 4) (q2 : Fin 8), ∃ t : Fin cfg1.N, win1_3.index t = ![q0.val, q1.val, q2.val] :=
  (by decide +kernel : ∀ (q0 : Fin 4) (q1 : Fin 4) (q2 : Fin 8), ∃ t : Fin grid1.N, win1_3.index t = ![q0.val, q1.val, q2.val])

/-- One entry of the block point `t` stores, at a lane `lane d` of the head `h` whose features are the block's lanes
    `off + d`: the specification's attended value of that head at the entry's place in the array. -/
theorem entry1_3 (c : Dev nD) (t : Fin cfg1.N) (r : Fin 512) (d : Fin 64) (lane : Fin 64 → Fin 128) (h : Fin 16)
    (hl : ∀ d' : Fin 64, win1_3.index t (2 : Fin 3) * 128 + 1 * (lane d').val = h.val * 64 + d'.val)
    :
    Body.hout (fun r d' => iblk1 V c 0 t (ix3 (0 : Fin 1) r (lane d'))) (fun j d' => iblk1 V c 1 t (ix3 (0 : Fin 1) j (lane d')))
        (fun j d' => iblk1 V c 2 t (ix3 (0 : Fin 1) j (lane d'))) r d
      = attnArr (V c main_v11) (V c main_v12) (V c main_v13) (((cfg1.win 3).blk t).view.emb (ix3 (0 : Fin 1) r (lane d))) := by
  obtain ⟨e0, e1, e2, e3, e4, e5, e6, e7, e8, e9, e10, e11⟩ := idx1_3 t
  have hp : win1_3.index t (0 : Fin 3) < 4 := by omega
  have hbase : win1_3.index t (1 : Fin 3) * 512 + 512 ≤ 2048 := by omega
  have hi : ((cfg1.win 3).blk t).view.emb (ix3 (0 : Fin 1) r (lane d))
      = ix3 (⟨win1_3.index t (0 : Fin 3), hp⟩ : Fin 4)
          (⟨win1_3.index t (1 : Fin 3) * 512 + r.val, by have := r.isLt; omega⟩ : Fin 2048) (feat h d) := by
    funext a; apply Fin.ext
    match a with
    | ⟨0, _⟩ => show win1_3.index t (0 : Fin 3) * 1 + 1 * (0 : Fin 1).val = win1_3.index t (0 : Fin 3); simp
    | ⟨1, _⟩ => show win1_3.index t (1 : Fin 3) * 512 + 1 * r.val = win1_3.index t (1 : Fin 3) * 512 + r.val; omega
    | ⟨2, _⟩ => exact hl d
  rw [hi, attnArr_feat, ← hout_eq_attend (ofArray (V c main_v11)) (ofArray (V c main_v12)) (ofArray (V c main_v13))
    ⟨win1_3.index t (0 : Fin 3), hp⟩ h (win1_3.index t (1 : Fin 3) * 512) hbase r d]
  have hq : (fun (r : Fin 512) (d' : Fin 64) => iblk1 V c 0 t (ix3 (0 : Fin 1) r (lane d')))
      = fun r d' => ofArray (V c main_v11) ⟨win1_3.index t (0 : Fin 3), hp⟩
          ⟨win1_3.index t (1 : Fin 3) * 512 + r.val, by have := r.isLt; omega⟩ (feat h d') :=
    funext fun r => funext fun d' => by
      show V c main_v11 (((cfg1.win 0).blk t).view.emb (ix3 (0 : Fin 1) r (lane d'))) = V c main_v11 (ix3 _ _ _)
      refine congrArg (V c main_v11) (funext fun a => Fin.ext ?_)
      match a with
      | ⟨0, _⟩ => show win1_0.index t (0 : Fin 3) * 1 + 1 * (0 : Fin 1).val = win1_3.index t (0 : Fin 3); simp [e0]
      | ⟨1, _⟩ => show win1_0.index t (1 : Fin 3) * 512 + 1 * r.val = win1_3.index t (1 : Fin 3) * 512 + r.val; omega
      | ⟨2, _⟩ => show win1_0.index t (2 : Fin 3) * 128 + 1 * (lane d').val = h.val * 64 + d'.val; rw [e2]; exact hl d'
  have hk : (fun (j : Fin 2048) (d' : Fin 64) => iblk1 V c 1 t (ix3 (0 : Fin 1) j (lane d')))
      = fun j d' => ofArray (V c main_v12) ⟨win1_3.index t (0 : Fin 3), hp⟩ j (feat h d') :=
    funext fun j => funext fun d' => by
      show V c main_v12 (((cfg1.win 1).blk t).view.emb (ix3 (0 : Fin 1) j (lane d'))) = V c main_v12 (ix3 _ _ _)
      refine congrArg (V c main_v12) (funext fun a => Fin.ext ?_)
      match a with
      | ⟨0, _⟩ => show win1_1.index t (0 : Fin 3) * 1 + 1 * (0 : Fin 1).val = win1_3.index t (0 : Fin 3); simp [e3]
      | ⟨1, _⟩ => show win1_1.index t (1 : Fin 3) * 2048 + 1 * j.val = j.val; omega
      | ⟨2, _⟩ => show win1_1.index t (2 : Fin 3) * 128 + 1 * (lane d').val = h.val * 64 + d'.val; rw [e5]; exact hl d'
  have hv : (fun (j : Fin 2048) (d' : Fin 64) => iblk1 V c 2 t (ix3 (0 : Fin 1) j (lane d')))
      = fun j d' => ofArray (V c main_v13) ⟨win1_3.index t (0 : Fin 3), hp⟩ j (feat h d') :=
    funext fun j => funext fun d' => by
      show V c main_v13 (((cfg1.win 2).blk t).view.emb (ix3 (0 : Fin 1) j (lane d'))) = V c main_v13 (ix3 _ _ _)
      refine congrArg (V c main_v13) (funext fun a => Fin.ext ?_)
      match a with
      | ⟨0, _⟩ => show win1_2.index t (0 : Fin 3) * 1 + 1 * (0 : Fin 1).val = win1_3.index t (0 : Fin 3); simp [e6]
      | ⟨1, _⟩ => show win1_2.index t (1 : Fin 3) * 2048 + 1 * j.val = j.val; omega
      | ⟨2, _⟩ => show win1_2.index t (2 : Fin 3) * 128 + 1 * (lane d').val = h.val * 64 + d'.val; rw [e8]; exact hl d'
  rw [hq, hk, hv]

/-- What point `t` writes back is block `t` of the attended values of the arrays as the kernel finds them. -/
theorem flushed1_3 (c : Dev nD) (t : Fin cfg1.N) :
    (dat1 V c).flushed 3 t
      = ((cfg1.win 3).blk t).view.read (Elt Ideal) (attnArr (V c main_v11) (V c main_v12) (V c main_v13)) := by
  show (cfg1.win 3).cut (grid1.coords t) ((dat1 V c).after 3 t) = _
  rw [after1_3]
  unfold out1_3
  rw [View.canon_unit_zero hz3]
  simp only [View.ld_unit_zero (S := S1x512x128) hz3, View.ld_unit_zero (S := S1x2048x128) hz3]
  obtain ⟨e0, e1, e2, e3, e4, e5, e6, e7, e8, e9, e10, e11⟩ := idx1_3 t
  funext j
  obtain ⟨u, r, l, rfl⟩ : ∃ (u : Fin 1) (r : Fin 512) (l : Fin 128), j = ix3 u r l := ⟨j 0, j 1, j 2, eq_ix3 j⟩
  obtain rfl : u = 0 := Subsingleton.elim _ _
  by_cases hlane : l.val < 64
  · obtain ⟨d, rfl⟩ : ∃ d : Fin 64, l = Body.laneA d := ⟨⟨l.val, hlane⟩, Fin.ext rfl⟩
    exact (Body.stored_apply_A (iblk1 V c 0 t) (iblk1 V c 1 t) (iblk1 V c 2 t) r d).trans
      (entry1_3 V c t r d Body.laneA ⟨2 * win1_3.index t (2 : Fin 3), by omega⟩
        (fun d' => by show win1_3.index t (2 : Fin 3) * 128 + 1 * d'.val = 2 * win1_3.index t (2 : Fin 3) * 64 + d'.val; omega))
  · have hl2 : l.val < 128 := l.isLt
    obtain ⟨d, rfl⟩ : ∃ d : Fin 64, l = Body.laneB d :=
      ⟨⟨l.val - 64, by omega⟩, Fin.ext (by show l.val = 64 + (l.val - 64); omega)⟩
    exact (Body.stored_apply_B (iblk1 V c 0 t) (iblk1 V c 1 t) (iblk1 V c 2 t) r d).trans
      (entry1_3 V c t r d Body.laneB ⟨2 * win1_3.index t (2 : Fin 3) + 1, by omega⟩
        (fun d' => by show win1_3.index t (2 : Fin 3) * 128 + 1 * (64 + d'.val) = (2 * win1_3.index t (2 : Fin 3) + 1) * 64 + d'.val; omega))

/-- An index of the array is in point `t`'s block iff each coordinate is in the block's range on its axis. -/
theorem mem_blk1_3 (t : Fin cfg1.N) (i : S4x2048x1024.Idx) :
    i ∈ ((cfg1.win 3).blk t).view.set ↔ ∀ x : Fin 3, win1_3.index t x * S1x512x128.size x ≤ (i x).val
      ∧ (i x).val < win1_3.index t x * S1x512x128.size x + S1x512x128.size x := by
  show i ∈ ((View.whole main_v14).slice (win1_3.rect t)).set ↔ _
  rw [View.set_slice_whole, Rect.mem_set_unit]
  exact Iff.rfl

/-- Every index of the array is in some point's block: its sequence, its tile of rows, its pair of heads. -/
theorem cover1_3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := onto1_3 ⟨(i 0).val, hi0⟩ ⟨(i 1).val / 512, by omega⟩ ⟨(i 2).val / 128, by omega⟩
  have q0 : win1_3.index t (0 : Fin 3) = (i 0).val := congrFun ht 0
  have q1 : win1_3.index t (1 : Fin 3) = (i 1).val / 512 := congrFun ht 1
  have q2 : win1_3.index t (2 : Fin 3) = (i 2).val / 128 := congrFun ht 2
  refine ⟨t, flush1_3 t, ?_⟩
  rw [mem_blk1_3]
  intro x
  match x with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 128 ≤ (i 2).val ∧ (i 2).val < win1_3.index t (2 : Fin 3) * 128 + 128; omega

/-- The array after the kernel. -/
theorem final1_3 (c : Dev nD) :
    (dat1 V c).arrAt 3 cfg1.N = attnArr (V c main_v11) (V c main_v12) (V c main_v13) :=
  (dat1 V c).arrAt_eq_of_cover 3 (attnArr (V c main_v11) (V c main_v12) (V c main_v13)) (fun t _ => flushed1_3 V c t) (cover1_3)

end Cert.KernelIdeal.Regions

end
-- ==== Proof.LibFlatten.lean ====
/-
  Shape casts that merge or split adjacent axes of a rank-3 array, read at indices given by coordinates. Row-major order
  puts entry `(p, n, f)` of an `[a, b, c]` array at position `(p·b + n)·c + f`, so
  • cast to `[a·b, c]` (leading axes merged) it is entry `(p·b + n, f)`, and an `[a·b, c]` matrix cast to `[a, b, c]` reads at
    `(p, n, f)` its entry `(p·b + n, f)`;
  • cast to `[a, b·c]` (trailing axes merged) it is entry `(p, n·c + f)`, and back.
  The merged extent is a literal in a printed program (`8192`, not `128·64`), so it is a separate variable `m` here and the
  merged coordinate's bound is an argument.
-/
import Idealize.ShloMosaic.Lib.Pipeline.Value
import Idealize.ShloMosaic.Lib.ValueIdx

namespace Idealize.ShloMosaic.Flatten

open Idealize.ShloMosaic Idealize.ShloMosaic.ValueIdx

variable {α : Type} {a b c m : ℕ}

/-- `[a, b, c]` cast to `[m, c]`, `m = a·b`: row `p·b + n` is the slab entry `(p, n)`. -/
theorem merge01_apply (x : (⟨3, ![a, b, c]⟩ : Shape).Idx → α) (h : (⟨3, ![a, b, c]⟩ : Shape).ShapeCasts ⟨2, ![m, c]⟩)
    (p : Fin a) (n : Fin b) (f : Fin c) (hr : p.val * b + n.val < m) :
    shapeCast ⟨2, ![m, c]⟩ x h (ix2 ⟨p.val * b + n.val, hr⟩ f) = x (ix3 p n f) :=
  shapeCast_apply x h _ _ (by rw [Shape.rowMajor_val_three, Shape.rowMajor_val_two]; rfl)

/-- `[m, c]` cast to `[a, b, c]`, `m = a·b`: entry `(p, n, f)` is the matrix entry `(p·b + n, f)`. -/
theorem split0_apply (x : (⟨2, ![m, c]⟩ : Shape).Idx → α) (h : (⟨2, ![m, c]⟩ : Shape).ShapeCasts ⟨3, ![a, b, c]⟩)
    (p : Fin a) (n : Fin b) (f : Fin c) (hr : p.val * b + n.val < m) :
    shapeCast ⟨3, ![a, b, c]⟩ x h (ix3 p n f) = x (ix2 ⟨p.val * b + n.val, hr⟩ f) :=
  shapeCast_apply x h _ _ (by rw [Shape.rowMajor_val_three, Shape.rowMajor_val_two]; rfl)

/-- `[a, b, c]` cast to `[a, m]`, `m = b·c`: column `n·c + f` of row `p` is the entry `(p, n, f)`. -/
theorem merge12_apply (x : (⟨3, ![a, b, c]⟩ : Shape).Idx → α) (h : (⟨3, ![a, b, c]⟩ : Shape).ShapeCasts ⟨2, ![a, m]⟩)
    (p : Fin a) (n : Fin b) (f : Fin c) (hr : n.val * c + f.val < m) (hm : m = b * c) :
    shapeCast ⟨2, ![a, m]⟩ x h (ix2 p ⟨n.val * c + f.val, hr⟩) = x (ix3 p n f) :=
  shapeCast_apply x h _ _ (by
    rw [Shape.rowMajor_val_three, Shape.rowMajor_val_two]
    show (p.val * b + n.val) * c + f.val = p.val * m + (n.val * c + f.val)
    rw [hm, Nat.add_mul, Nat.mul_assoc, Nat.add_assoc])

/-- `[a, m]` cast to `[a, b, c]`, `m = b·c`: entry `(p, n, f)` is the matrix entry `(p, n·c + f)`. -/
theorem split1_apply (x : (⟨2, ![a, m]⟩ : Shape).Idx → α) (h : (⟨2, ![a, m]⟩ : Shape).ShapeCasts ⟨3, ![a, b, c]⟩)
    (p : Fin a) (n : Fin b) (f : Fin c) (hr : n.val * c + f.val < m) (hm : m = b * c) :
    shapeCast ⟨3, ![a, b, c]⟩ x h (ix3 p n f) = x (ix2 p ⟨n.val * c + f.val, hr⟩) :=
  shapeCast_apply x h _ _ (by
    rw [Shape.rowMajor_val_three, Shape.rowMajor_val_two]
    show p.val * m + (n.val * c + f.val) = (p.val * b + n.val) * c + f.val
    rw [hm, Nat.add_mul, Nat.mul_assoc, Nat.add_assoc])

end Idealize.ShloMosaic.Flatten
-- ==== Proof.Compose.lean ====
/-
  The three kernels and the reshapes between them, composed. The program works on rows: it reads the input
  `[4, 2048, 1024]` as `[8192, 1024]` (row `2048·p + s` is position `s` of sequence `p`), projects, reads the three
  projections back as `[4, 2048, 1024]`, attends, reads the attended values as `[8192, 1024]` again, projects, and reads the
  result back as `[4, 2048, 1024]`; a bias vector `[1024]` enters as the row `[1, 1024]`. A linear layer on rows reads ONE
  row, so through these changes of layout it is the specification's linear layer on the feature axis, and the composed
  term is the specification's whole layer, entry by entry, for all extended reals.
-/
import proofs.«171669_j62259845923177_2_alg».proof.Proof.Region0
import proofs.«171669_j62259845923177_2_alg».proof.Proof.Region1
import proofs.«171669_j62259845923177_2_alg».proof.Proof.LibFlatten
import proofs.«171669_j62259845923177_2_alg».proof.Proof.Spec

noncomputable section

namespace Cert.KernelIdeal.Regions

open Cert.KernelIdeal Cert.KernelIdeal.Gen Idealize.ShloMosaic Idealize.ShloMosaic.ValueIdx
open Cert.Attention (Act ofArray attended linear)

/-- Position `s` of sequence `p` is row `2048·p + s`. -/
def flatRow (p : Fin 4) (s : Fin 2048) : Fin 8192 := ⟨p.val * 2048 + s.val, by have := p.isLt; have := s.isLt; omega⟩

/-- `[4, 2048, 1024]` read as `[8192, 1024]`, at a row. -/
theorem flatten_apply (X : S4x2048x1024.Idx → EReal) (p : Fin 4) (s : Fin 2048) (k : Fin 1024) :
    shapeCast S8192x1024 X shapeCasts_S4x2048x1024_S8192x1024 (ix2 (flatRow p s) k) = X (ix3 p s k) :=
  Flatten.merge01_apply (a := 4) (b := 2048) (c := 1024) (m := 8192) X shapeCasts_S4x2048x1024_S8192x1024 p s k (flatRow p s).isLt

/-- `[8192, 1024]` read as `[4, 2048, 1024]`, at a position. -/
theorem unflatten_apply (Y : S8192x1024.Idx → EReal) (p : Fin 4) (s : Fin 2048) (f : Fin 1024) :
    shapeCast S4x2048x1024 Y shapeCasts_S8192x1024_S4x2048x1024 (ix3 p s f) = Y (ix2 (flatRow p s) f) :=
  Flatten.split0_apply (a := 4) (b := 2048) (c := 1024) (m := 8192) Y shapeCasts_S8192x1024_S4x2048x1024 p s f (flatRow p s).isLt

/-- A vector `[1024]` read as the row `[1, 1024]`. -/
theorem biasCast_apply (b : S1024.Idx → EReal) (f : Fin 1024) :
    shapeCast S1x1024 b shapeCasts_S1024_S1x1024 (ix2 (0 : Fin 1) f) = b (ix1 f) := by
  refine (shapeCast_addUnit_apply ![1024] b shapeCasts_S1024_S1x1024 (ix2 (0 : Fin 1) f)).trans ?_
  refine congrArg b (funext fun a => ?_)
  match a with
  | ⟨0, _⟩ => rfl

/-- A projection on rows, read back by position, is the specification's linear layer. -/
theorem proj_eq (X : S4x2048x1024.Idx → EReal) (W : S1024x1024.Idx → EReal) (b : S1024.Idx → EReal) :
    ofArray (shapeCast S4x2048x1024 (affine (shapeCast S8192x1024 X shapeCasts_S4x2048x1024_S8192x1024) W
        (shapeCast S1x1024 b shapeCasts_S1024_S1x1024)) shapeCasts_S8192x1024_S4x2048x1024)
      = linear (ofArray X) W b := by
  funext p s f
  show shapeCast S4x2048x1024 _ shapeCasts_S8192x1024_S4x2048x1024 (ix3 p s f) = _
  rw [unflatten_apply, affine_ix2, biasCast_apply]
  show _ = (∑ e : Fin 1024, X (ix3 p s e) * W (ix2 f e)) + b (ix1 f)
  refine congrArg (· + b (ix1 f)) (Finset.sum_congr rfl fun k _ => ?_)
  rw [flatten_apply]

/-- The whole program's term is the specification's layer. -/
theorem program_eq (X : S4x2048x1024.Idx → EReal)
    (Wq : S1024x1024.Idx → EReal) (bq : S1024.Idx → EReal) (Wk : S1024x1024.Idx → EReal) (bk : S1024.Idx → EReal)
    (Wv : S1024x1024.Idx → EReal) (bv : S1024.Idx → EReal) (Wo : S1024x1024.Idx → EReal) (bo : S1024.Idx → EReal) :
    shapeCast S4x2048x1024
        (affine
          (shapeCast S8192x1024
            (attnArr
              (shapeCast S4x2048x1024 (affine (shapeCast S8192x1024 X shapeCasts_S4x2048x1024_S8192x1024) Wq
                (shapeCast S1x1024 bq shapeCasts_S1024_S1x1024)) shapeCasts_S8192x1024_S4x2048x1024)
              (shapeCast S4x2048x1024 (affine (shapeCast S8192x1024 X shapeCasts_S4x2048x1024_S8192x1024) Wk
                (shapeCast S1x1024 bk shapeCasts_S1024_S1x1024)) shapeCasts_S8192x1024_S4x2048x1024)
              (shapeCast S4x2048x1024 (affine (shapeCast S8192x1024 X shapeCasts_S4x2048x1024_S8192x1024) Wv
                (shapeCast S1x1024 bv shapeCasts_S1024_S1x1024)) shapeCasts_S8192x1024_S4x2048x1024))
            shapeCasts_S4x2048x1024_S8192x1024)
          Wo (shapeCast S1x1024 bo shapeCasts_S1024_S1x1024))
        shapeCasts_S8192x1024_S4x2048x1024
      = Cert.Attention.result X Wq bq Wk bk Wv bv Wo bo := by
  funext i
  obtain ⟨p, s, f, rfl⟩ : ∃ (p : Fin 4) (s : Fin 2048) (f : Fin 1024), i = ix3 p s f := ⟨i 0, i 1, i 2, eq_ix3 i⟩
  rw [Cert.Attention.result_ix3, unflatten_apply, affine_ix2, biasCast_apply]
  show _ = (∑ e : Fin 1024, attended (linear (ofArray X) Wq bq) (linear (ofArray X) Wk bk) (linear (ofArray X) Wv bv) p s e
      * Wo (ix2 f e)) + bo (ix1 f)
  refine congrArg (· + bo (ix1 f)) (Finset.sum_congr rfl fun k _ => ?_)
  rw [flatten_apply]
  refine congrArg (· * Wo (ix2 f k)) ?_
  show attended (ofArray _) (ofArray _) (ofArray _) p s k = _
  rw [proj_eq, proj_eq, proj_eq]

end Cert.KernelIdeal.Regions

end
-- ==== Proof.Region2.lean ====
/-
  The output-projection kernel as a whole array. Its grid has 16 points; point `t` reads rows `512·t … 512·t+511` of the
  `[8192, 1024]` attended values, the whole weight matrix and the bias row, and writes the same rows of its output. The 16
  blocks tile the output, and each is that block of one whole-array function — rows times transposed weights plus the
  bias row: after the kernel the output array IS that function of the arrays the kernel was entered with.
-/
import proofs.«171669_j62259845923177_2_alg».proof.Proof.Region0

set_option maxRecDepth 16384

noncomputable section

namespace Cert.KernelIdeal.Regions

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The output projection (output window 3) -/

/-- The printed index maps, decided over the grid: the row block moves with the point, the weights and the bias row stay. -/
theorem idx2_3 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 15 ∧ win2_3.index t (1 : Fin 2) = 0 :=
  (by decide +kernel : ∀ t : Fin grid2.N, _)

/-- Every block of rows is some point's. -/
theorem onto2_3 : ∀ q0 : Fin 16, ∃ t : Fin cfg2.N, win2_3.index t = ![q0.val, 0] :=
  (by decide +kernel : ∀ q0 : Fin 16, ∃ t : Fin grid2.N, win2_3.index t = ![q0.val, 0])

/-- What point `t` writes back is block `t` of the whole-array function of the arrays as the kernel finds them. -/
theorem flushed2_3 (c : Dev nD) (t : Fin cfg2.N) :
    (dat2 V c).flushed 3 t
      = ((cfg2.win 3).blk t).view.read (Elt Ideal) (affine (V c main_v15) (V c main_v5) (V c main_v9)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx2_3 t
  funext j
  obtain ⟨r, q, rfl⟩ : ∃ (r : Fin 512) (q : Fin 1024), j = ix2 r q := ⟨j 0, j 1, eq_ix2 j⟩
  show k2_pay1 (iblk2 V c 0 t) (iblk2 V c 1 t) (iblk2 V c 2 t) (ix2 r q)
      = affine (V c main_v15) (V c main_v5) (V c main_v9) (((cfg2.win 3).blk t).view.emb (ix2 r q))
  refine (Body.pay_o_apply (iblk2 V c 0 t) (iblk2 V c 1 t) (iblk2 V c 2 t) r q).trans ?_
  have hrow : win2_3.index t (0 : Fin 2) * 512 + 1 * r.val < 8192 := by omega
  have hi : ((cfg2.win 3).blk t).view.emb (ix2 r q)
      = ix2 (⟨win2_3.index t (0 : Fin 2) * 512 + 1 * r.val, hrow⟩ : Fin 8192) q := by
    funext x; apply Fin.ext
    match x with
    | ⟨0, _⟩ => rfl
    | ⟨1, _⟩ => show win2_3.index t (1 : Fin 2) * 1024 + 1 * q.val = q.val; omega
  rw [hi, affine_ix2]
  have hx : ∀ k : Fin 1024, iblk2 V c 0 t (ix2 r k)
      = V c main_v15 (ix2 (⟨win2_3.index t (0 : Fin 2) * 512 + 1 * r.val, hrow⟩ : Fin 8192) k) := fun k => by
    show V c main_v15 (((cfg2.win 0).blk t).view.emb (ix2 r k)) = _
    refine congrArg (V c main_v15) (funext fun x => Fin.ext ?_)
    match x with
    | ⟨0, _⟩ => show win2_0.index t (0 : Fin 2) * 512 + 1 * r.val = win2_3.index t (0 : Fin 2) * 512 + 1 * r.val; omega
    | ⟨1, _⟩ => show win2_0.index t (1 : Fin 2) * 1024 + 1 * k.val = k.val; omega
  have hw : ∀ k : Fin 1024, iblk2 V c 1 t (ix2 q k) = V c main_v5 (ix2 q k) := fun k => by
    show V c main_v5 (((cfg2.win 1).blk t).view.emb (ix2 q k)) = _
    refine congrArg (V c main_v5) (funext fun x => Fin.ext ?_)
    match x with
    | ⟨0, _⟩ => show win2_1.index t (0 : Fin 2) * 1024 + 1 * q.val = q.val; omega
    | ⟨1, _⟩ => show win2_1.index t (1 : Fin 2) * 1024 + 1 * k.val = k.val; omega
  have hb : iblk2 V c 2 t (ix2 (0 : Fin 1) q) = V c main_v9 (ix2 (0 : Fin 1) q) := by
    show V c main_v9 (((cfg2.win 2).blk t).view.emb (ix2 (0 : Fin 1) q)) = _
    refine congrArg (V c main_v9) (funext fun x => Fin.ext ?_)
    match x with
    | ⟨0, _⟩ => show win2_2.index t (0 : Fin 2) * 1 + 1 * 0 = 0; omega
    | ⟨1, _⟩ => show win2_2.index t (1 : Fin 2) * 1024 + 1 * q.val = q.val; omega
  rw [hb]
  refine congrArg (· + V c main_v9 (ix2 (0 : Fin 1) q)) (Finset.sum_congr rfl fun k _ => ?_)
  rw [hx k, hw k]

/-- An index of the array is in point `t`'s block iff each coordinate is in the block's range on its axis. -/
theorem mem_blk2_3 (t : Fin cfg2.N) (i : S8192x1024.Idx) :
    i ∈ ((cfg2.win 3).blk t).view.set ↔ ∀ x : Fin 2, win2_3.index t x * S512x1024.size x ≤ (i x).val
      ∧ (i x).val < win2_3.index t x * S512x1024.size x + S512x1024.size x := by
  show i ∈ ((View.whole main_v16).slice (win2_3.rect t)).set ↔ _
  rw [View.set_slice_whole, Rect.mem_set_unit]
  exact Iff.rfl

/-- Every index of the array is in some point's block: the point of its block of rows. -/
theorem cover2_3 (i : S8192x1024.Idx) :
    ∃ t : Fin cfg2.N, (cfg2.win 3).flush t = true ∧ i ∈ ((cfg2.win 3).blk t).view.set := by
  have hi0 : (i 0).val < 8192 := (i 0).isLt
  have hi1 : (i 1).val < 1024 := (i 1).isLt
  obtain ⟨t, ht⟩ := onto2_3 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2_3]
  intro x
  match x with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The array after the kernel. -/
theorem final2_3 (c : Dev nD) :
    (dat2 V c).arrAt 3 cfg2.N = affine (V c main_v15) (V c main_v5) (V c main_v9) :=
  (dat2 V c).arrAt_eq_of_cover 3 (affine (V c main_v15) (V c main_v5) (V c main_v9)) (fun t _ => flushed2_3 V c t) (cover2_3)

end Cert.KernelIdeal.Regions

end
-- ==== Proof.Chain.lean ====
/-
  The contents of every buffer the program writes, boundary by boundary, as closed terms of the nine argument arrays
  (at the extended reals a change of float format is the identity, so the converted copies ARE the arguments):
    after the first host stretch — the input read as rows, the weights, the bias vectors read as rows;
    after the projection kernel — the three projections on rows;
    after the reshapes — the same by position;
    after the attention kernel — the attended values by position;
    after the reshape — the same on rows;
    after the output-projection kernel — its rows;
    after the last reshape — the result by position, which is the specification's layer of the arguments.
  A buffer no later segment writes keeps its contents through that segment.
-/
import proofs.«171669_j62259845923177_2_alg».proof.Proof.Compose
import proofs.«171669_j62259845923177_2_alg».proof.Proof.Region2
import Idealize.ShloMosaic.Lib.StableHlo.Run

set_option maxRecDepth 16384

noncomputable section

namespace Cert.KernelIdeal.Chain

open Cert.KernelIdeal Cert.KernelIdeal.Gen Cert.KernelIdeal.Regions
open Idealize.ShloMosaic Idealize.ShloMosaic.TcCoe Idealize.ShloMosaic.StableHlo Idealize.SL.Sem

variable (m : (ℓ : Loc nD τ sig) → Buf (Elt Ideal) ℓ) (ρ : Dev nD → PrngReg)

/-! ## After the first host stretch -/

theorem rows_x (c : Dev nD) : (W1 m ρ c (Proc.devRef .tc main_v1) : S8192x1024.Idx → EReal) = (shapeCast S8192x1024 (m ((c : Thread nD τ).loc main_arg0)) shapeCasts_S4x2048x1024_S8192x1024) := by
  show StableHlo.after hostOps0 (W0 m ρ c) (Proc.devRef .tc main_v1) = _
  after_results
  rfl

theorem weights_v2 (c : Dev nD) : (W1 m ρ c (Proc.devRef .tc main_v2) : S1024x1024.Idx → EReal) = (m ((c : Thread nD τ).loc main_arg1)) := by
  show StableHlo.after hostOps0 (W0 m ρ c) (Proc.devRef .tc main_v2) = _
  after_results
  rfl

theorem weights_v3 (c : Dev nD) : (W1 m ρ c (Proc.devRef .tc main_v3) : S1024x1024.Idx → EReal) = (m ((c : Thread nD τ).loc main_arg3)) := by
  show StableHlo.after hostOps0 (W0 m ρ c) (Proc.devRef .tc main_v3) = _
  after_results
  rfl

theorem weights_v4 (c : Dev nD) : (W1 m ρ c (Proc.devRef .tc main_v4) : S1024x1024.Idx → EReal) = (m ((c : Thread nD τ).loc main_arg5)) := by
  show StableHlo.after hostOps0 (W0 m ρ c) (Proc.devRef .tc main_v4) = _
  after_results
  rfl

theorem weights_v5 (c : Dev nD) : (W1 m ρ c (Proc.devRef .tc main_v5) : S1024x1024.Idx → EReal) = (m ((c : Thread nD τ).loc main_arg7)) := by
  show StableHlo.after hostOps0 (W0 m ρ c) (Proc.devRef .tc main_v5) = _
  after_results
  rfl

theorem bias_v6 (c : Dev nD) : (W1 m ρ c (Proc.devRef .tc main_v6) : S1x1024.Idx → EReal) = (shapeCast S1x1024 (m ((c : Thread nD τ).loc main_arg2)) shapeCasts_S1024_S1x1024) := by
  show StableHlo.after hostOps0 (W0 m ρ c) (Proc.devRef .tc main_v6) = _
  after_results
  rfl

theorem bias_v7 (c : Dev nD) : (W1 m ρ c (Proc.devRef .tc main_v7) : S1x1024.Idx → EReal) = (shapeCast S1x1024 (m ((c : Thread nD τ).loc main_arg4)) shapeCasts_S1024_S1x1024) := by
  show StableHlo.after hostOps0 (W0 m ρ c) (Proc.devRef .tc main_v7) = _
  after_results
  rfl

theorem bias_v8 (c : Dev nD) : (W1 m ρ c (Proc.devRef .tc main_v8) : S1x1024.Idx → EReal) = (shapeCast S1x1024 (m ((c : Thread nD τ).loc main_arg6)) shapeCasts_S1024_S1x1024) := by
  show StableHlo.after hostOps0 (W0 m ρ c) (Proc.devRef .tc main_v8) = _
  after_results
  rfl

theorem bias_v9 (c : Dev nD) : (W1 m ρ c (Proc.devRef .tc main_v9) : S1x1024.Idx → EReal) = (shapeCast S1x1024 (m ((c : Thread nD τ).loc main_arg8)) shapeCasts_S1024_S1x1024) := by
  show StableHlo.after hostOps0 (W0 m ρ c) (Proc.devRef .tc main_v9) = _
  after_results
  rfl

/-! ## After the projection kernel -/

theorem proj_q (c : Dev nD) : (W2 m ρ c (Proc.devRef .tc main_v10_0) : S8192x1024.Idx → EReal) = (affine (shapeCast S8192x1024 (m ((c : Thread nD τ).loc main_arg0)) shapeCasts_S4x2048x1024_S8192x1024) (m ((c : Thread nD τ).loc main_arg1)) (shapeCast S1x1024 (m ((c : Thread nD τ).loc main_arg2)) shapeCasts_S1024_S1x1024)) := by
  refine (W2_arr m ρ c 7).trans ((final0_7 (V1 m ρ) c).trans ?_)
  show affine (W1 m ρ c (Proc.devRef .tc main_v1)) (W1 m ρ c (Proc.devRef .tc main_v2)) (W1 m ρ c (Proc.devRef .tc main_v6)) = _
  rw [rows_x, weights_v2, bias_v6]

theorem proj_k (c : Dev nD) : (W2 m ρ c (Proc.devRef .tc main_v10_1) : S8192x1024.Idx → EReal) = (affine (shapeCast S8192x1024 (m ((c : Thread nD τ).loc main_arg0)) shapeCasts_S4x2048x1024_S8192x1024) (m ((c : Thread nD τ).loc main_arg3)) (shapeCast S1x1024 (m ((c : Thread nD τ).loc main_arg4)) shapeCasts_S1024_S1x1024)) := by
  refine (W2_arr m ρ c 8).trans ((final0_8 (V1 m ρ) c).trans ?_)
  show affine (W1 m ρ c (Proc.devRef .tc main_v1)) (W1 m ρ c (Proc.devRef .tc main_v3)) (W1 m ρ c (Proc.devRef .tc main_v7)) = _
  rw [rows_x, weights_v3, bias_v7]

theorem proj_v (c : Dev nD) : (W2 m ρ c (Proc.devRef .tc main_v10_2) : S8192x1024.Idx → EReal) = (affine (shapeCast S8192x1024 (m ((c : Thread nD τ).loc main_arg0)) shapeCasts_S4x2048x1024_S8192x1024) (m ((c : Thread nD τ).loc main_arg5)) (shapeCast S1x1024 (m ((c : Thread nD τ).loc main_arg6)) shapeCasts_S1024_S1x1024)) := by
  refine (W2_arr m ρ c 9).trans ((final0_9 (V1 m ρ) c).trans ?_)
  show affine (W1 m ρ c (Proc.devRef .tc main_v1)) (W1 m ρ c (Proc.devRef .tc main_v4)) (W1 m ρ c (Proc.devRef .tc main_v8)) = _
  rw [rows_x, weights_v4, bias_v8]

theorem w2_v5 (c : Dev nD) : W2 m ρ c (Proc.devRef .tc main_v5) = W1 m ρ c (Proc.devRef .tc main_v5) := W2_of_ne m ρ c main_v5 (by decide)
theorem w2_v9 (c : Dev nD) : W2 m ρ c (Proc.devRef .tc main_v9) = W1 m ρ c (Proc.devRef .tc main_v9) := W2_of_ne m ρ c main_v9 (by decide)

/-! ## After the three reshapes -/

theorem pos_q (c : Dev nD) : (W3 m ρ c (Proc.devRef .tc main_v11) : S4x2048x1024.Idx → EReal) = (shapeCast S4x2048x1024 (affine (shapeCast S8192x1024 (m ((c : Thread nD τ).loc main_arg0)) shapeCasts_S4x2048x1024_S8192x1024) (m ((c : Thread nD τ).loc main_arg1)) (shapeCast S1x1024 (m ((c : Thread nD τ).loc main_arg2)) shapeCasts_S1024_S1x1024)) shapeCasts_S8192x1024_S4x2048x1024) := by
  have h : (W3 m ρ c (Proc.devRef .tc main_v11) : S4x2048x1024.Idx → EReal)
      = shapeCast S4x2048x1024 (W2 m ρ c (Proc.devRef .tc main_v10_0) : S8192x1024.Idx → EReal) shapeCasts_S8192x1024_S4x2048x1024 := by
    show StableHlo.after hostOps1 (W2 m ρ c) (Proc.devRef .tc main_v11) = _
    after_results
    rfl
  rw [h, proj_q]

theorem pos_k (c : Dev nD) : (W3 m ρ c (Proc.devRef .tc main_v12) : S4x2048x1024.Idx → EReal) = (shapeCast S4x2048x1024 (affine (shapeCast S8192x1024 (m ((c : Thread nD τ).loc main_arg0)) shapeCasts_S4x2048x1024_S8192x1024) (m ((c : Thread nD τ).loc main_arg3)) (shapeCast S1x1024 (m ((c : Thread nD τ).loc main_arg4)) shapeCasts_S1024_S1x1024)) shapeCasts_S8192x1024_S4x2048x1024) := by
  have h : (W3 m ρ c (Proc.devRef .tc main_v12) : S4x2048x1024.Idx → EReal)
      = shapeCast S4x2048x1024 (W2 m ρ c (Proc.devRef .tc main_v10_1) : S8192x1024.Idx → EReal) shapeCasts_S8192x1024_S4x2048x1024 := by
    show StableHlo.after hostOps1 (W2 m ρ c) (Proc.devRef .tc main_v12) = _
    after_results
    rfl
  rw [h, proj_k]

theorem pos_v (c : Dev nD) : (W3 m ρ c (Proc.devRef .tc main_v13) : S4x2048x1024.Idx → EReal) = (shapeCast S4x2048x1024 (affine (shapeCast S8192x1024 (m ((c : Thread nD τ).loc main_arg0)) shapeCasts_S4x2048x1024_S8192x1024) (m ((c : Thread nD τ).loc main_arg5)) (shapeCast S1x1024 (m ((c : Thread nD τ).loc main_arg6)) shapeCasts_S1024_S1x1024)) shapeCasts_S8192x1024_S4x2048x1024) := by
  have h : (W3 m ρ c (Proc.devRef .tc main_v13) : S4x2048x1024.Idx → EReal)
      = shapeCast S4x2048x1024 (W2 m ρ c (Proc.devRef .tc main_v10_2) : S8192x1024.Idx → EReal) shapeCasts_S8192x1024_S4x2048x1024 := by
    show StableHlo.after hostOps1 (W2 m ρ c) (Proc.devRef .tc main_v13) = _
    after_results
    rfl
  rw [h, proj_v]

theorem w3_v5 (c : Dev nD) : W3 m ρ c (Proc.devRef .tc main_v5) = W2 m ρ c (Proc.devRef .tc main_v5) := by
  show StableHlo.after hostOps1 (W2 m ρ c) (Proc.devRef .tc main_v5) = _
  after_results
theorem w3_v9 (c : Dev nD) : W3 m ρ c (Proc.devRef .tc main_v9) = W2 m ρ c (Proc.devRef .tc main_v9) := by
  show StableHlo.after hostOps1 (W2 m ρ c) (Proc.devRef .tc main_v9) = _
  after_results

/-! ## After the attention kernel -/

theorem attended_pos (c : Dev nD) : (W4 m ρ c (Proc.devRef .tc main_v14) : S4x2048x1024.Idx → EReal) = (attnArr (shapeCast S4x2048x1024 (affine (shapeCast S8192x1024 (m ((c : Thread nD τ).loc main_arg0)) shapeCasts_S4x2048x1024_S8192x1024) (m ((c : Thread nD τ).loc main_arg1)) (shapeCast S1x1024 (m ((c : Thread nD τ).loc main_arg2)) shapeCasts_S1024_S1x1024)) shapeCasts_S8192x1024_S4x2048x1024) (shapeCast S4x2048x1024 (affine (shapeCast S8192x1024 (m ((c : Thread nD τ).loc main_arg0)) shapeCasts_S4x2048x1024_S8192x1024) (m ((c : Thread nD τ).loc main_arg3)) (shapeCast S1x1024 (m ((c : Thread nD τ).loc main_arg4)) shapeCasts_S1024_S1x1024)) shapeCasts_S8192x1024_S4x2048x1024) (shapeCast S4x2048x1024 (affine (shapeCast S8192x1024 (m ((c : Thread nD τ).loc main_arg0)) shapeCasts_S4x2048x1024_S8192x1024) (m ((c : Thread nD τ).loc main_arg5)) (shapeCast S1x1024 (m ((c : Thread nD τ).loc main_arg6)) shapeCasts_S1024_S1x1024)) shapeCasts_S8192x1024_S4x2048x1024)) := by
  refine (W4_arr m ρ c 3).trans ((final1_3 (V3 m ρ) c).trans ?_)
  show attnArr (W3 m ρ c (Proc.devRef .tc main_v11)) (W3 m ρ c (Proc.devRef .tc main_v12)) (W3 m ρ c (Proc.devRef .tc main_v13)) = _
  rw [pos_q, pos_k, pos_v]

theorem w4_v5 (c : Dev nD) : W4 m ρ c (Proc.devRef .tc main_v5) = W3 m ρ c (Proc.devRef .tc main_v5) := W4_of_ne m ρ c main_v5 (by decide)
theorem w4_v9 (c : Dev nD) : W4 m ρ c (Proc.devRef .tc main_v9) = W3 m ρ c (Proc.devRef .tc main_v9) := W4_of_ne m ρ c main_v9 (by decide)

/-! ## After the reshape to rows -/

theorem attended_rows (c : Dev nD) : (W5 m ρ c (Proc.devRef .tc main_v15) : S8192x1024.Idx → EReal) = (shapeCast S8192x1024 (attnArr (shapeCast S4x2048x1024 (affine (shapeCast S8192x1024 (m ((c : Thread nD τ).loc main_arg0)) shapeCasts_S4x2048x1024_S8192x1024) (m ((c : Thread nD τ).loc main_arg1)) (shapeCast S1x1024 (m ((c : Thread nD τ).loc main_arg2)) shapeCasts_S1024_S1x1024)) shapeCasts_S8192x1024_S4x2048x1024) (shapeCast S4x2048x1024 (affine (shapeCast S8192x1024 (m ((c : Thread nD τ).loc main_arg0)) shapeCasts_S4x2048x1024_S8192x1024) (m ((c : Thread nD τ).loc main_arg3)) (shapeCast S1x1024 (m ((c : Thread nD τ).loc main_arg4)) shapeCasts_S1024_S1x1024)) shapeCasts_S8192x1024_S4x2048x1024) (shapeCast S4x2048x1024 (affine (shapeCast S8192x1024 (m ((c : Thread nD τ).loc main_arg0)) shapeCasts_S4x2048x1024_S8192x1024) (m ((c : Thread nD τ).loc main_arg5)) (shapeCast S1x1024 (m ((c : Thread nD τ).loc main_arg6)) shapeCasts_S1024_S1x1024)) shapeCasts_S8192x1024_S4x2048x1024)) shapeCasts_S4x2048x1024_S8192x1024) := by
  have h : (W5 m ρ c (Proc.devRef .tc main_v15) : S8192x1024.Idx → EReal)
      = shapeCast S8192x1024 (W4 m ρ c (Proc.devRef .tc main_v14) : S4x2048x1024.Idx → EReal) shapeCasts_S4x2048x1024_S8192x1024 := by
    show StableHlo.after hostOps2 (W4 m ρ c) (Proc.devRef .tc main_v15) = _
    after_results
    rfl
  rw [h, attended_pos]

theorem w5_v5 (c : Dev nD) : (W5 m ρ c (Proc.devRef .tc main_v5) : S1024x1024.Idx → EReal) = (m ((c : Thread nD τ).loc main_arg7)) := by
  have h : W5 m ρ c (Proc.devRef .tc main_v5) = W4 m ρ c (Proc.devRef .tc main_v5) := by
    show StableHlo.after hostOps2 (W4 m ρ c) (Proc.devRef .tc main_v5) = _
    after_results
  rw [h, w4_v5, w3_v5, w2_v5, weights_v5]

theorem w5_v9 (c : Dev nD) : (W5 m ρ c (Proc.devRef .tc main_v9) : S1x1024.Idx → EReal) = (shapeCast S1x1024 (m ((c : Thread nD τ).loc main_arg8)) shapeCasts_S1024_S1x1024) := by
  have h : W5 m ρ c (Proc.devRef .tc main_v9) = W4 m ρ c (Proc.devRef .tc main_v9) := by
    show StableHlo.after hostOps2 (W4 m ρ c) (Proc.devRef .tc main_v9) = _
    after_results
  rw [h, w4_v9, w3_v9, w2_v9, bias_v9]

/-! ## After the output-projection kernel -/

theorem out_rows (c : Dev nD) : (W6 m ρ c (Proc.devRef .tc main_v16) : S8192x1024.Idx → EReal) = (affine (shapeCast S8192x1024 (attnArr (shapeCast S4x2048x1024 (affine (shapeCast S8192x1024 (m ((c : Thread nD τ).loc main_arg0)) shapeCasts_S4x2048x1024_S8192x1024) (m ((c : Thread nD τ).loc main_arg1)) (shapeCast S1x1024 (m ((c : Thread nD τ).loc main_arg2)) shapeCasts_S1024_S1x1024)) shapeCasts_S8192x1024_S4x2048x1024) (shapeCast S4x2048x1024 (affine (shapeCast S8192x1024 (m ((c : Thread nD τ).loc main_arg0)) shapeCasts_S4x2048x1024_S8192x1024) (m ((c : Thread nD τ).loc main_arg3)) (shapeCast S1x1024 (m ((c : Thread nD τ).loc main_arg4)) shapeCasts_S1024_S1x1024)) shapeCasts_S8192x1024_S4x2048x1024) (shapeCast S4x2048x1024 (affine (shapeCast S8192x1024 (m ((c : Thread nD τ).loc main_arg0)) shapeCasts_S4x2048x1024_S8192x1024) (m ((c : Thread nD τ).loc main_arg5)) (shapeCast S1x1024 (m ((c : Thread nD τ).loc main_arg6)) shapeCasts_S1024_S1x1024)) shapeCasts_S8192x1024_S4x2048x1024)) shapeCasts_S4x2048x1024_S8192x1024) (m ((c : Thread nD τ).loc main_arg7)) (shapeCast S1x1024 (m ((c : Thread nD τ).loc main_arg8)) shapeCasts_S1024_S1x1024)) := by
  refine (W6_arr m ρ c 3).trans ((final2_3 (V5 m ρ) c).trans ?_)
  show affine (W5 m ρ c (Proc.devRef .tc main_v15)) (W5 m ρ c (Proc.devRef .tc main_v5)) (W5 m ρ c (Proc.devRef .tc main_v9)) = _
  rw [attended_rows, w5_v5, w5_v9]

/-! ## After the last reshape: the result -/

/-- The result buffer after the last segment holds the specification's layer of the argument arrays. -/
theorem result_eq (c : Dev nD) : (W7 m ρ c (Proc.devRef .tc main_v17) : S4x2048x1024.Idx → EReal)
    = Cert.Attention.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h : (W7 m ρ c (Proc.devRef .tc main_v17) : S4x2048x1024.Idx → EReal)
      = shapeCast S4x2048x1024 (W6 m ρ c (Proc.devRef .tc main_v16) : S8192x1024.Idx → EReal) shapeCasts_S8192x1024_S4x2048x1024 := by
    show StableHlo.after hostOps3 (W6 m ρ c) (Proc.devRef .tc main_v17) = _
    after_results
    rfl
  rw [h, out_rows]
  exact program_eq _ _ _ _ _ _ _ _ _

end Cert.KernelIdeal.Chain

end
-- ==== Proof.RefProj.lean ====
/-
  The reference's linear layer and its split into heads, read at coordinates.
  A linear layer is printed as four operations: the contraction `Σ_e y[p, s, e] · W[f, e]`, the bias broadcast to
  `[1, 1, 1024]` and then to `[4, 2048, 1024]`, and their sum. The split into heads is a reshape of the 1024 features to
  16 × 64 followed by the exchange of the position and head axes: entry `(p, h, s, d)` of the result is entry
  `(p, s, h·64 + d)` of the layer, by the row-major arithmetic of the reshape.
-/
import proofs.«171669_j62259845923177_2_alg».proof.Proof.Gen.ReferenceIdeal.Read
import proofs.«171669_j62259845923177_2_alg».proof.Proof.Spec

noncomputable section

namespace Cert.ReferenceIdeal.RefProj

open Cert.ReferenceIdeal Cert.ReferenceIdeal.Gen Cert.ReferenceIdeal.Read Cert.Attention
open Idealize.ShloMosaic Idealize.ShloMosaic.ValueIdx

/-- The linear layer `Σ_e y[p, s, e] · W[f, e] + b[f]` as the reference prints it, at `(p, s, f)`. -/
theorem linear_apply (y : (⟨S4x2048x1024, .f32⟩ : BufTy).Contents (Elt Ideal)) (W : (⟨S1024x1024, .f32⟩ : BufTy).Contents (Elt Ideal)) (b : (⟨S1024, .f32⟩ : BufTy).Contents (Elt Ideal)) (p : Fin 4) (s : Fin 2048) (f : Fin 1024) :
    val_main_v3 (F := Ideal) y W b (ix3 p s f) = linear (ofArray y) W b p s f := by
  rw [val_main_v3_apply, val_main_v0_apply, val_main_v2_apply, val_main_v1_apply]
  have hl : ∀ k : Fin 1024, lidx_main_v0 (ix3 p s f) k = ix3 p s k := fun k => funext fun a => by
    match a with
    | ⟨0, _⟩ => rfl
    | ⟨1, _⟩ => rfl
    | ⟨2, _⟩ => rfl
  have hr : ∀ k : Fin 1024, ridx_main_v0 (ix3 p s f) k = ix2 f k := fun k => funext fun a => by
    match a with
    | ⟨0, _⟩ => rfl
    | ⟨1, _⟩ => rfl
  have hb : idx_main_v1 (idx_main_v2 (ix3 p s f)) = ix1 f := funext fun a => by
    match a with
    | ⟨0, _⟩ => rfl
  rw [hb]
  show (∑ k : Fin 1024, y (lidx_main_v0 (ix3 p s f) k) * W (ridx_main_v0 (ix3 p s f) k)) + b (ix1 f)
    = (∑ e : Fin 1024, y (ix3 p s e) * W (ix2 f e)) + b (ix1 f)
  simp only [hl, hr]

/-- The row-major arithmetic of the split: lane `d` of head `h` at position `s` is feature `h·64 + d` at position `s`. -/
theorem split_index (p : Fin 4) (h : Fin 16) (s : Fin 2048) (d : Fin 64) :
    idx_main_v4 (idx_main_v5 (ix4 p h s d)) = ix3 p s (feat h d) := by
  have hp := p.isLt
  have hh := h.isLt
  have hs := s.isLt
  have hd := d.isLt
  funext a
  apply Fin.ext
  match a with
  | ⟨0, _⟩ =>
    show (((p.val * 2048 + s.val) * 16 + h.val) * 64 + d.val) / 2097152 = p.val
    omega
  | ⟨1, _⟩ =>
    show (((p.val * 2048 + s.val) * 16 + h.val) * 64 + d.val) / 1024 % 2048 = s.val
    omega
  | ⟨2, _⟩ =>
    show (((p.val * 2048 + s.val) * 16 + h.val) * 64 + d.val) % 1024 = h.val * 64 + d.val
    omega

/-- A linear layer split into heads, at `(p, h, s, d)`: the layer at position `s`, feature `h·64 + d`. -/
theorem heads_apply (y : (⟨S4x2048x1024, .f32⟩ : BufTy).Contents (Elt Ideal)) (W : (⟨S1024x1024, .f32⟩ : BufTy).Contents (Elt Ideal)) (b : (⟨S1024, .f32⟩ : BufTy).Contents (Elt Ideal)) (p : Fin 4) (h : Fin 16) (s : Fin 2048) (d : Fin 64) :
    val_main_v5 (F := Ideal) y W b (ix4 p h s d) = linear (ofArray y) W b p s (feat h d) := by
  rw [val_main_v5_apply, val_main_v4_apply, split_index, linear_apply]

/-- The keys are printed by the same four operations and the same split as the queries. -/
theorem keys_eq (y : (⟨S4x2048x1024, .f32⟩ : BufTy).Contents (Elt Ideal)) (W : (⟨S1024x1024, .f32⟩ : BufTy).Contents (Elt Ideal)) (b : (⟨S1024, .f32⟩ : BufTy).Contents (Elt Ideal)) : val_main_v11 (F := Ideal) y W b = val_main_v5 (F := Ideal) y W b := rfl

/-- The values are printed by the same four operations and the same split as the queries. -/
theorem values_eq (y : (⟨S4x2048x1024, .f32⟩ : BufTy).Contents (Elt Ideal)) (W : (⟨S1024x1024, .f32⟩ : BufTy).Contents (Elt Ideal)) (b : (⟨S1024, .f32⟩ : BufTy).Contents (Elt Ideal)) : val_main_v17 (F := Ideal) y W b = val_main_v5 (F := Ideal) y W b := rfl

/-- The keys split into heads, at `(p, h, s, d)`. -/
theorem keys_apply (y : (⟨S4x2048x1024, .f32⟩ : BufTy).Contents (Elt Ideal)) (W : (⟨S1024x1024, .f32⟩ : BufTy).Contents (Elt Ideal)) (b : (⟨S1024, .f32⟩ : BufTy).Contents (Elt Ideal)) (p : Fin 4) (h : Fin 16) (s : Fin 2048) (d : Fin 64) :
    val_main_v11 (F := Ideal) y W b (ix4 p h s d) = linear (ofArray y) W b p s (feat h d) :=
  heads_apply y W b p h s d

/-- The values split into heads, at `(p, h, s, d)`. -/
theorem values_apply (y : (⟨S4x2048x1024, .f32⟩ : BufTy).Contents (Elt Ideal)) (W : (⟨S1024x1024, .f32⟩ : BufTy).Contents (Elt Ideal)) (b : (⟨S1024, .f32⟩ : BufTy).Contents (Elt Ideal)) (p : Fin 4) (h : Fin 16) (s : Fin 2048) (d : Fin 64) :
    val_main_v17 (F := Ideal) y W b (ix4 p h s d) = linear (ofArray y) W b p s (feat h d) :=
  heads_apply y W b p h s d

end Cert.ReferenceIdeal.RefProj

end
-- ==== Proof.RefScale.lean ====
/-
  The reference scales a score by dividing it by the square root of the f32 word of 64; the specification multiplies it by
  the f32 word of 1/8. The word of 64 denotes the real 64, whose square root is 8, and the word 0x3E000000 denotes 1/8, so
  the two scalings agree at every extended real, the infinities included.
-/
import Idealize.ShloMosaic.PureOps.Ideal

noncomputable section

namespace Cert.ReferenceIdeal.RefScale

open Idealize.ShloMosaic

/-- The f32 word `0x42800000` denotes the real 64. -/
theorem ofBits_64 : Ideal.ofBits .f32 0x42800000#32 = ((64 : ℝ) : EReal) := by
  simp [Ideal.ofBits, Ideal.ieee, -EReal.coe_mul]; norm_num

/-- The f32 word `0x3E000000` denotes the real 1/8. -/
theorem ofBits_eighth : Ideal.ofBits .f32 0x3E000000#32 = ((1 / 8 : ℝ) : EReal) := by
  simp [Ideal.ofBits, Ideal.ieee, -EReal.coe_mul]; norm_num

/-- The square root of the word of 64 is the real 8. -/
theorem sqrt_64 : Ideal.sqrt (Ideal.ofBits .f32 0x42800000#32) = ((8 : ℝ) : EReal) := by
  rw [ofBits_64, Ideal.sqrt_coe, if_neg (by norm_num)]
  rw [show (64 : ℝ) = 8 * 8 by norm_num, Real.sqrt_mul_self (by norm_num)]

/-- Dividing by the square root of the word of 64 is multiplying by the word of 1/8, at every extended real. -/
theorem div_sqrt_64 (s : EReal) :
    Ideal.div s (Ideal.sqrt (Ideal.ofBits .f32 0x42800000#32)) = s * Ideal.ofBits .f32 0x3E000000#32 := by
  rw [sqrt_64, ofBits_eighth, Ideal.div_coe (by norm_num : (8 : ℝ) ≠ 0)]

end Cert.ReferenceIdeal.RefScale

end
-- ==== Proof.LibLastAxis4.lean ====
/-
  The host's reduction with a maximum body over the LAST axis of a rank-4 array `[A, B, C, N]`, read at an index of the
  reduced array `[A, B, C]` given by coordinates: from an initial value it is the fold of `max` over `k : Fin N` of the entries
  `(a, b, c, k)`, any extents. (The row maxima of attention scores laid out as `[batch, head, query, key]` are this
  reduction from −∞.)
-/
import Idealize.ShloMosaic.PureOps.Ideal.Laws
import Idealize.ShloMosaic.Lib.Pipeline.Value
import Idealize.ShloMosaic.Lib.ValueIdx

noncomputable section

namespace Idealize.ShloMosaic.LastAxis4

open Idealize.ShloMosaic Idealize.ShloMosaic.ValueIdx

/-- Entry `(a, b, c)` of the reduced array with the last coordinate `k` put back is `(a, b, c, k)`. -/
theorem lift_last4 {A B C N : ℕ} (h : (⟨4, ![A, B, C, N]⟩ : Shape).Reduces [3] (⟨3, ![A, B, C]⟩ : Shape)) (a : Fin A) (b : Fin B)
    (c : Fin C) (k : Fin ((⟨4, ![A, B, C, N]⟩ : Shape).size 3)) :
    h.lift (ix3 a b c) k = ix4 a b c (⟨k.val, k.isLt⟩ : Fin N) := by
  funext d; apply Fin.ext
  fin_cases d <;> rfl

/-- The maximum over the last axis of a `[A, B, C, N]` array at `(a, b, c)`, as the host's reduction with a maximum body
    computes it from the initial value `init`: the fold of `max` over `k : Fin N` of the entries `(a, b, c, k)`. -/
theorem hostReduce_maximumf_last4 {A B C N : ℕ} {u : Shape} {φ : FTy} (x : FVec Ideal ⟨4, ![A, B, C, N]⟩ φ) (init : FVec Ideal u φ)
    (h' : (⟨4, ![A, B, C, N]⟩ : Shape).ReducesTo [3] (⟨3, ![A, B, C]⟩ : Shape))
    (h : (⟨4, ![A, B, C, N]⟩ : Shape).Reduces [3] (⟨3, ![A, B, C]⟩ : Shape)) (hu : 0 < u.numel) (a : Fin A) (b : Fin B) (c : Fin C) :
    Host.reduce FloatOps.maximumf x init h' hu (ix3 a b c)
      = (Finset.univ : Finset (Fin N)).fold max (init (Shape.Idx.first hu)) (fun k => x (ix4 a b c k)) := by
  rw [Host.reduce_eq_fold_single FloatOps.maximumf x init h' h hu]
  exact congrArg (fun f => Finset.fold max (init (Shape.Idx.first hu)) f (Finset.univ : Finset (Fin N)))
    (funext fun k => congrArg x (lift_last4 h a b c k))

end Idealize.ShloMosaic.LastAxis4

end
-- ==== Proof.RefScores.lean ====
/-
  The reference's scaled scores and their row maxima, read at coordinates.
  The score of query position `q` against key position `k` in head `h` is the contraction over the 64 lanes of the
  queries and keys split into heads, divided by the square root of the word of 64, which is the product with the word
  of 1/8. The row maximum is the host's reduction with a maximum body over the last axis of the `[4, 16, 2048, 2048]`
  array of scores from the initial value −∞, a fold of `max` over the key positions, followed by a maximum with a
  broadcast −∞, which changes nothing.
-/
import proofs.«171669_j62259845923177_2_alg».proof.Proof.RefProj
import proofs.«171669_j62259845923177_2_alg».proof.Proof.RefScale
import proofs.«171669_j62259845923177_2_alg».proof.Proof.LibRowColumn
import proofs.«171669_j62259845923177_2_alg».proof.Proof.LibLastAxis4

noncomputable section

namespace Cert.ReferenceIdeal.RefScores

open Cert.ReferenceIdeal Cert.ReferenceIdeal.Gen Cert.ReferenceIdeal.Read Cert.Attention
open Idealize.ShloMosaic Idealize.ShloMosaic.ValueIdx Idealize.ShloMosaic.LastAxis4

/-- The reference's scaled score at `(p, h, q, k)`. -/
theorem scores_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (h : Fin 16) (q k : Fin 2048) :
    val_main_v21 (F := Ideal) x0 x1 x2 x3 x4 (ix4 p h q k) = score (linear (ofArray x0) x1 x2) (linear (ofArray x0) x3 x4) p h q k := by
  rw [val_main_v21_apply, val_main_v18_apply, val_main_v20_apply, val_main_v19_apply, val_main_cst_apply]
  have hl : ∀ d : Fin 64, lidx_main_v18 (ix4 p h q k) d = ix4 p h q d := fun d => funext fun a => by
    match a with
    | ⟨0, _⟩ => rfl
    | ⟨1, _⟩ => rfl
    | ⟨2, _⟩ => rfl
    | ⟨3, _⟩ => rfl
  have hr : ∀ d : Fin 64, ridx_main_v18 (ix4 p h q k) d = ix4 p h k d := fun d => funext fun a => by
    match a with
    | ⟨0, _⟩ => rfl
    | ⟨1, _⟩ => rfl
    | ⟨2, _⟩ => rfl
    | ⟨3, _⟩ => rfl
  simp only [hl, hr, RefProj.heads_apply, RefProj.keys_apply]
  exact RefScale.div_sqrt_64 _

/-- The reference's row maximum at `(p, h, q)`. -/
theorem rowMax_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (h : Fin 16) (q : Fin 2048) :
    val_main_v24 (F := Ideal) x0 x1 x2 x3 x4 (ix3 p h q) = rowMax (linear (ofArray x0) x1 x2) (linear (ofArray x0) x3 x4) p h q := by
  rw [val_main_v24_apply, val_main_v23_apply, val_main_cst_1_apply]
  refine (RowColumn.max_negInf _).trans ?_
  refine (hostReduce_maximumf_last4 (φ := .f32) (val_main_v21 (F := Ideal) x0 x1 x2 x3 x4) (val_main_cst_0 (F := Ideal))
    Gen.reducesTo_S4x16x2048x2048_S4x16x2048_d3 (by decide) Gen.h_S_ p h q).trans ?_
  exact congrArg (fun f => Finset.fold max negInf f (Finset.univ : Finset (Fin 2048)))
    (funext fun k => scores_apply x0 x1 x2 x3 x4 p h q k)

end Cert.ReferenceIdeal.RefScores

end
-- ==== Proof.RefSoftmax.lean ====
/-
  The reference's softmax weights, read at coordinates.
  The row maximum is broadcast back along the key axis (first to a trailing axis of size one, then along it) and
  subtracted from the scores; the exponentials are summed along the key axis from the constant 0; the sum is broadcast
  back the same way and divides the exponentials.
-/
import proofs.«171669_j62259845923177_2_alg».proof.Proof.RefScores

noncomputable section

namespace Cert.ReferenceIdeal.RefSoftmax

open Cert.ReferenceIdeal Cert.ReferenceIdeal.Gen Cert.ReferenceIdeal.Read Cert.Attention
open Idealize.ShloMosaic Idealize.ShloMosaic.ValueIdx

/-- The exponential of a score less its row maximum, at `(p, h, q, k)`. -/
theorem exps_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (h : Fin 16) (q k : Fin 2048) :
    val_main_v28 (F := Ideal) x0 x1 x2 x3 x4 (ix4 p h q k)
      = Ideal.exp (score (linear (ofArray x0) x1 x2) (linear (ofArray x0) x3 x4) p h q k - rowMax (linear (ofArray x0) x1 x2) (linear (ofArray x0) x3 x4) p h q) := by
  rw [val_main_v28_apply, val_main_v27_apply, val_main_v26_apply, val_main_v25_apply]
  have hi : idx_main_v25 (idx_main_v26 (ix4 p h q k)) = ix3 p h q := funext fun a => by
    match a with
    | ⟨0, _⟩ => rfl
    | ⟨1, _⟩ => rfl
    | ⟨2, _⟩ => rfl
  rw [hi, RefScores.rowMax_apply, RefScores.scores_apply]
  rfl

/-- The sum of a row's exponentials, at `(p, h, q)`: the constant 0 the sum starts from adds nothing. -/
theorem rowSum_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (h : Fin 16) (q : Fin 2048) :
    val_main_v29 (F := Ideal) x0 x1 x2 x3 x4 (ix3 p h q)
      = ∑ k : Fin 2048, Ideal.exp (score (linear (ofArray x0) x1 x2) (linear (ofArray x0) x3 x4) p h q k - rowMax (linear (ofArray x0) x1 x2) (linear (ofArray x0) x3 x4) p h q) := by
  rw [val_main_v29_apply, val_main_cst_2_apply]
  refine (congrArg (· + _) Ideal.ofBits_zero_f32).trans ((zero_add _).trans ?_)
  refine Finset.sum_congr rfl fun k _ => ?_
  have hi : idx_main_v29 (ix3 p h q) k = ix4 p h q k := funext fun a => by
    match a with
    | ⟨0, _⟩ => rfl
    | ⟨1, _⟩ => rfl
    | ⟨2, _⟩ => rfl
    | ⟨3, _⟩ => rfl
  rw [hi, exps_apply]

/-- The softmax weight, at `(p, h, q, k)`. -/
theorem weights_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (p : Fin 4) (h : Fin 16) (q k : Fin 2048) :
    val_main_v32 (F := Ideal) x0 x1 x2 x3 x4 (ix4 p h q k) = weight (linear (ofArray x0) x1 x2) (linear (ofArray x0) x3 x4) p h q k := by
  rw [val_main_v32_apply, val_main_v31_apply, val_main_v30_apply]
  have hi : idx_main_v30 (idx_main_v31 (ix4 p h q k)) = ix3 p h q := funext fun a => by
    match a with
    | ⟨0, _⟩ => rfl
    | ⟨1, _⟩ => rfl
    | ⟨2, _⟩ => rfl
  rw [hi, rowSum_apply, exps_apply]
  rfl

end Cert.ReferenceIdeal.RefSoftmax

end
-- ==== Proof.RefAttend.lean ====
/-
  The reference's attended values, read at coordinates, and their merge back along the feature axis.
  The attended value of lane `d` of head `h` at query position `q` is the contraction over the key positions of the
  softmax weights and the values split into heads. The merge exchanges the head and position axes and reshapes
  16 × 64 back to 1024 features: entry `(p, s, c)` of the result is entry `(p, c / 64, s, c mod 64)` of the attended
  values, by the row-major arithmetic of the reshape.
-/
import proofs.«171669_j62259845923177_2_alg».proof.Proof.RefSoftmax

noncomputable section

namespace Cert.ReferenceIdeal.RefAttend

open Cert.ReferenceIdeal Cert.ReferenceIdeal.Gen Cert.ReferenceIdeal.Read Cert.Attention
open Idealize.ShloMosaic Idealize.ShloMosaic.ValueIdx

/-- The attended value at `(p, h, q, d)`. -/
theorem attend_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (p : Fin 4) (h : Fin 16) (q : Fin 2048) (d : Fin 64) :
    val_main_v33 (F := Ideal) x0 x1 x2 x3 x4 x5 x6 (ix4 p h q d) = attend (linear (ofArray x0) x1 x2) (linear (ofArray x0) x3 x4) (linear (ofArray x0) x5 x6) p h q d := by
  rw [val_main_v33_apply]
  refine Finset.sum_congr rfl fun k _ => ?_
  have hl : lidx_main_v33 (ix4 p h q d) k = ix4 p h q k := funext fun a => by
    match a with
    | ⟨0, _⟩ => rfl
    | ⟨1, _⟩ => rfl
    | ⟨2, _⟩ => rfl
    | ⟨3, _⟩ => rfl
  have hr : ridx_main_v33 (ix4 p h q d) k = ix4 p h k d := funext fun a => by
    match a with
    | ⟨0, _⟩ => rfl
    | ⟨1, _⟩ => rfl
    | ⟨2, _⟩ => rfl
    | ⟨3, _⟩ => rfl
  rw [hl, hr, RefSoftmax.weights_apply, RefProj.values_apply]

/-- The row-major arithmetic of the merge: feature `c` at position `s` is lane `c mod 64` of head `c / 64` at position `s`. -/
theorem merge_index (p : Fin 4) (s : Fin 2048) (c : Fin 1024) :
    idx_main_v34 (idx_main_v35 (ix3 p s c)) = ix4 p (headOf c) s (laneOf c) := by
  have hp := p.isLt
  have hs := s.isLt
  have hc := c.isLt
  funext a
  apply Fin.ext
  match a with
  | ⟨0, _⟩ =>
    show ((p.val * 2048 + s.val) * 1024 + c.val) / 2097152 = p.val
    omega
  | ⟨1, _⟩ =>
    show ((p.val * 2048 + s.val) * 1024 + c.val) / 64 % 16 = c.val / 64
    omega
  | ⟨2, _⟩ =>
    show ((p.val * 2048 + s.val) * 1024 + c.val) / 1024 % 2048 = s.val
    omega
  | ⟨3, _⟩ =>
    show ((p.val * 2048 + s.val) * 1024 + c.val) % 64 = c.val % 64
    omega

/-- The attended values laid back along the feature axis, at `(p, s, c)`. -/
theorem attended_apply (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (p : Fin 4) (s : Fin 2048) (c : Fin 1024) :
    val_main_v35 (F := Ideal) x0 x1 x2 x3 x4 x5 x6 (ix3 p s c) = attended (linear (ofArray x0) x1 x2) (linear (ofArray x0) x3 x4) (linear (ofArray x0) x5 x6) p s c := by
  rw [val_main_v35_apply, val_main_v34_apply, merge_index, attend_apply]
  rfl

end Cert.ReferenceIdeal.RefAttend

end
-- ==== Proof.RefValue.lean ====
/-
  The reference's result is the attention layer of the specification.
  The last linear layer is printed by the same four operations as the first three, applied to the merged attended
  values; reading it at `(p, s, f)` and the merged values at every `(p, s, e)` gives the specification's layer in
  coordinates, and an index of the result array is its three coordinates.
-/
import proofs.«171669_j62259845923177_2_alg».proof.Proof.RefAttend

noncomputable section

namespace Cert.ReferenceIdeal.RefValue

open Cert.ReferenceIdeal Cert.ReferenceIdeal.Gen Cert.ReferenceIdeal.Read Cert.Attention
open Idealize.ShloMosaic Idealize.ShloMosaic.ValueIdx

/-- The merged attended values, read by coordinates, are the specification's. -/
theorem ofArray_attended (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) :
    ofArray (val_main_v35 (F := Ideal) x0 x1 x2 x3 x4 x5 x6) = attended (linear (ofArray x0) x1 x2) (linear (ofArray x0) x3 x4) (linear (ofArray x0) x5 x6) :=
  funext fun p => funext fun s => funext fun c => RefAttend.attended_apply x0 x1 x2 x3 x4 x5 x6 p s c

/-- The reference's result at `(p, s, f)` is the layer there. -/
theorem reference_layer_at (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (p : Fin 4) (s : Fin 2048) (f : Fin 1024) :
    val_main_v39 (F := Ideal) x0 x1 x2 x3 x4 x5 x6 x7 x8 (ix3 p s f) = layer x0 x1 x2 x3 x4 x5 x6 x7 x8 p s f := by
  show val_main_v3 (F := Ideal) (val_main_v35 (F := Ideal) x0 x1 x2 x3 x4 x5 x6) x7 x8 (ix3 p s f) = _
  rw [RefProj.linear_apply, ofArray_attended]
  rfl

/-- The reference computes the attention layer of the specification, as an array. -/
theorem reference_is_layer (x0 : (⟨S4x2048x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    Cert.ReferenceIdeal.Read.val_main_v39 (F := Ideal) x0 x1 x2 x3 x4 x5 x6 x7 x8 = Cert.Attention.result x0 x1 x2 x3 x4 x5 x6 x7 x8 :=
  funext fun i => (congrArg (val_main_v39 (F := Ideal) x0 x1 x2 x3 x4 x5 x6 x7 x8) (ValueIdx.eq_ix3 i)).trans
    (reference_layer_at x0 x1 x2 x3 x4 x5 x6 x7 x8 (i 0) (i 1) (i 2))

end Cert.ReferenceIdeal.RefValue

end
-- ==== Proof.lean ====
/-
  A multi-head self-attention layer (4 sequences of 2048 positions, 1024 features in 16 heads of 64 lanes) written as
  three tiled kernels — the three projections, attention on pairs of heads over whole key rows, the output projection —
  against the plain array program: three linear layers, scores `Q·Kᵀ / sqrt 64`, a softmax along the keys, the weighted sum
  of the values, a last linear layer.
  Over the extended reals both compute ONE function of the nine argument arrays (Proof/Spec.lean):
  * the kernel side: each kernel leaves in each output array one whole-array function of the arrays it is entered with
    (Proof/Region0.lean, Region1.lean, Region2.lean, over the bodies read entry by entry in LinearBody.lean, AttnBody.lean and
    AttnBlock.lean), the reshapes between the kernels only renumber rows (Proof/Compose.lean), and so the result buffer after
    the last segment holds the specification's layer (Proof/Chain.lean, over the run of Proof/KernelRun.lean);
  * the reference side: read one host operation at a time, its last value is the same layer (Proof/RefValue.lean and the
    modules it imports); the one law used there is `s / sqrt 64 = s · 1/8`, which holds for every extended real.
  The two sides are the same finite sums over the same index sets, so no input has to be finite and the precondition is
  never opened. The idealized kernel is the printed kernel with no rewrite applied, so that conjunct is `True`.
  The three frames are the generated ones; the reference's is its generated run with the result dropped.
-/
import proofs.«171669_j62259845923177_2_alg».proof.Defs
import proofs.«171669_j62259845923177_2_alg».proof.Proof.Gen.Kernel
import proofs.«171669_j62259845923177_2_alg».proof.Proof.Gen.Kernel.Frame
import proofs.«171669_j62259845923177_2_alg».proof.Proof.Gen.KernelIdeal
import proofs.«171669_j62259845923177_2_alg».proof.Proof.Gen.KernelIdeal.Frame
import proofs.«171669_j62259845923177_2_alg».proof.Proof.Gen.ReferenceIdeal
import proofs.«171669_j62259845923177_2_alg».proof.Proof.Gen.ReferenceIdeal.Run
import proofs.«171669_j62259845923177_2_alg».proof.Proof.Gen.ReferenceIdeal.Read
import proofs.«171669_j62259845923177_2_alg».proof.Proof.Gen.Pre_finite_inputs
import proofs.«171669_j62259845923177_2_alg».proof.Proof.KernelRun
import proofs.«171669_j62259845923177_2_alg».proof.Proof.Chain
import proofs.«171669_j62259845923177_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied when the kernel was idealized. -/
theorem preserves : Cert.preserves_Kernel_KernelIdeal := trivial

/-- Both programs end with the specification's layer of the (agreeing) argument arrays in their result buffers. -/
theorem algebraic : Cert.algebraic_KernelIdeal_ReferenceIdeal := by
  intro m ρ m' ρ' _ hagree
  refine ⟨fun c => Cert.Attention.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v39_eq, Cert.ReferenceIdeal.RefValue.reference_is_layer, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
